-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S4096 : Shape := ⟨1, ![4096]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel

variable [Facts]

def fn {F : FTy → Type} [FloatOps F] (main_arg0 : FVec F S4096x768 .f32) (main_arg1 : IVec S4096 32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  main_v3
-- ==== Kernel.lean ====
abbrev S4096x768 : Shape := ⟨2, ![4096, 768]⟩
abbrev S4096 : Shape := ⟨1, ![4096]⟩
abbrev S4096x1 : Shape := ⟨2, ![4096, 1]⟩
abbrev S1x4096 : Shape := ⟨2, ![1, 4096]⟩
abbrev S8x8x8x128 : Shape := ⟨4, ![8, 8, 8, 128]⟩
abbrev S512x768 : Shape := ⟨2, ![512, 768]⟩
abbrev S512x1 : Shape := ⟨2, ![512, 1]⟩
abbrev S1x512 : Shape := ⟨2, ![1, 512]⟩
abbrev S1x1x8x128 : Shape := ⟨4, ![1, 1, 8, 128]⟩
abbrev S512 : Shape := ⟨1, ![512]⟩
abbrev S768x512 : Shape := ⟨2, ![768, 512]⟩
abbrev S512x512 : Shape := ⟨2, ![512, 512]⟩
abbrev S1 : Shape := ⟨1, ![1]⟩
abbrev S1x1 : Shape := ⟨2, ![1, 1]⟩
abbrev S1x1x1x1 : Shape := ⟨4, ![1, 1, 1, 1]⟩
abbrev S_ : Shape := ⟨0, ![]⟩

abbrev nBuf : Space → Nat
  | .hbm => 10
  | .vmem => 10
  | .smem => 0
  | _ => 0

abbrev bufTy : (tb : Table) → Fin (tcTables nBuf tb) → BufTy
  | .hbm, ⟨0, _⟩ => ⟨S4096x768, .f32⟩
  | .hbm, ⟨1, _⟩ => ⟨S4096, .i32⟩
  | .hbm, ⟨2, _⟩ => ⟨S4096x768, .bf16⟩
  | .hbm, ⟨3, _⟩ => ⟨S4096x1, .i32⟩
  | .hbm, ⟨4, _⟩ => ⟨S1x4096, .i32⟩
  | .hbm, ⟨5, _⟩ => ⟨S8x8x8x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S1x1x8x128, .f32⟩
  | .local _ .vmem, ⟨9, _⟩ => ⟨S1x1x8x128, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  shapeCasts_S4096_S4096x1 : S4096.ShapeCasts S4096x1
  shapeCasts_S4096_S1x4096 : S4096.ShapeCasts S1x4096
  inb_S512x768_S512x768_0_0 : ∀ a, (![0, 0] : Fin 2 → Nat) a + S512x768.size a ≤ S512x768.size a
  h_S512x768 : 0 < S512x768.numel
  shapeCasts_S512x768_S512x768 : S512x768.ShapeCasts S512x768
  reduces_S512x768_S512 : S512x768.Reduces [1] S512
  shapeCasts_S512_S512x1 : S512.ShapeCasts S512x1
  transposes_S512x1_p1_0_S1x512 : S512x1.Transposes [1, 0] S1x512
  transposes_S512x768_p1_0_S768x512 : S512x768.Transposes [1, 0] S768x512
  broadcasts_S512x1_S512x512 : S512x1.Broadcasts S512x512
  broadcasts_S1x512_S512x512 : S1x512.Broadcasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  iota_S512x512_d0_w32 : S512x512.Iotas .tc 32 [0]
  iota_S512x512_d1_w32 : S512x512.Iotas .tc 32 [1]
  reduces_S512x512_S512 : S512x512.Reduces [1] S512
  reduces_S512x1_S1 : S512x1.Reduces [0] S1
  shapeCasts_S1_S1x1 : S1.ShapeCasts S1x1
  shapeCasts_S1x1_S1x1x1x1 : S1x1.ShapeCasts S1x1x1x1
  shapeCasts_S1x1x1x1_S1x1x1x1 : S1x1x1x1.ShapeCasts S1x1x1x1
  broadcasts_S1x1x1x1_S1x1x8x128 : S1x1x1x1.Broadcasts S1x1x8x128
  inb_S1x1x8x128_S1x1x8x128_0_0_0_0 : ∀ a, (![0, 0, 0, 0] : Fin 4 → Nat) a + S1x1x8x128.size a ≤ S1x1x8x128.size a
  h_S1x1x8x128 : 0 < S1x1x8x128.numel
  reducesTo_S8x8x8x128_S_d0_1_2_3 : S8x8x8x128.ReducesTo [0, 1, 2, 3] S_
  h_S_ : 0 < S_.numel
  dot_S512x768_S768x512_S512x512_1_0_0_1_n_n_wf : DotDims.WF S512x768 S768x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S4096x768.size a
  hwx0_0 : ∀ i : grid0.Coords, EltTy.bits .bf16 = 32 ∨ (Rect.block (s := S4096x768) S512x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S4096x768.size a
  hwx0_1 : ∀ i : grid0.Coords, EltTy.bits .bf16 = 32 ∨ (Rect.block (s := S4096x768) S512x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x8x128.size a ≤ S8x8x8x128.size a
  hwx0_4 : ∀ i : grid0.Coords, EltTy.bits .f32 = 32 ∨ (Rect.block (s := S8x8x8x128) S1x1x8x128.size (cc0_transform_4 i) (hinb0_4 i)).WholeWords (EltTy.packing .f32)

variable [Facts₀]

def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x768 : Shape := ⟨2, ![4096, 768]⟩
abbrev S4096 : Shape := ⟨1, ![4096]⟩
abbrev S_ : Shape := ⟨0, ![]⟩
abbrev S768x4096 : Shape := ⟨2, ![768, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 55
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096, .i32⟩
  | .hbm, ⟨2, _⟩ => ⟨S4096x768, .f32⟩
  | .hbm, ⟨3, _⟩ => ⟨S_, .f32⟩
  | .hbm, ⟨4, _⟩ => ⟨S4096, .f32⟩
  | .hbm, ⟨5, _⟩ => ⟨S768x4096, .f32⟩
  | .hbm, ⟨6, _⟩ => ⟨S4096x4096, .f32⟩
  | .hbm, ⟨7, _⟩ => ⟨S4096x1, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x1, .i32⟩
  | .hbm, ⟨24, _⟩ => ⟨S1x4096, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .i1⟩
  | .hbm, ⟨37, _⟩ => ⟨S4096x4096, .i1⟩
  | .hbm, ⟨38, _⟩ => ⟨S4096x4096, .i32⟩
  | .hbm, ⟨39, _⟩ => ⟨S_, .i32⟩
  | .hbm, ⟨40, _⟩ => ⟨S4096x4096, .i32⟩
  | .hbm, ⟨41, _⟩ => ⟨S4096x4096, .i32⟩
  | .hbm, ⟨42, _⟩ => ⟨S4096x4096, .i32⟩
  | .hbm, ⟨43, _⟩ => ⟨S4096x4096, .i1⟩
  | .hbm, ⟨44, _⟩ => ⟨S_, .i1⟩
  | .hbm, ⟨45, _⟩ => ⟨S4096x4096, .i1⟩
  | .hbm, ⟨46, _⟩ => ⟨S4096x4096, .i1⟩
  | .hbm, ⟨47, _⟩ => ⟨S_, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_v28 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_0 : Ref sig .tc := ⟨.hbm, 44, rfl⟩
abbrev main_call1_v5 : Ref sig .tc := ⟨.hbm, 45, rfl⟩
abbrev main_v29 : Ref sig .tc := ⟨.hbm, 46, rfl⟩
abbrev main_cst_5 : Ref sig .tc := ⟨.hbm, 47, rfl⟩
abbrev main_call2_v0 : Ref sig .tc := ⟨.hbm, 48, rfl⟩
abbrev main_call2_v1 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩

abbrev nD : Nat := 1
abbrev τ : Topo := Topo.v7x

variable {F : FTy → Type} [FloatOps F]

class Facts₀ : Prop where
  reducesTo_S4096x768_S4096_d1 : S4096x768.ReducesTo [1] S4096
  h_S_ : 0 < S_.numel
  transposes_S4096x768_S768x4096_1_0 : S4096x768.Transposes [1, 0] S768x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x768_S768x4096_S4096x4096_1_0_0_1_n_n_wf : DotDims.WF S4096x768 S768x4096 S4096x4096 [1] [0] [0] [1] [] []

variable [Facts₀]

def dot_S4096x768_S768x4096_S4096x4096_1_0_0_1_n_n : DotDims S4096x768 S768x4096 S4096x4096 where
  lhsContracting := [1]
  rhsContracting := [0]
  lhsNonContracting := [0]
  rhsNonContracting := [1]
  lhsBatch := []
  rhsBatch := []
  wf := dot_S4096x768_S768x4096_S4096x4096_1_0_0_1_n_n_wf

class Facts : Prop extends Facts₀ where

variable [Facts]
-- ==== Proof.Body.lean ====
import proofs.«181027_j66391604461719_1_alg».proof.Proof.Gen.KernelIdeal.Launch
import proofs.«181027_j66391604461719_1_alg».proof.Proof.Gen.KernelIdeal.Skeleton
import proofs.«181027_j66391604461719_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The kernel body at one grid point

The pair matrix of the contrastive loss is cut into an 8 × 8 grid of 512 × 512 blocks. At grid point
`(bi, bj)` the body reads four blocks — rows `bi` and rows `bj` of the embeddings, the labels of
rows `bi` as a column and the labels of rows `bj` as a row —, forms the masked pair losses of the
block, adds them up, scales the sum by `2⁻¹⁰` and writes that one number to every cell of its
8 × 128 output block.

This module states that fact in separation logic, for any float instance: started on staging buffers
that hold the four input blocks, the body ends with the inputs untouched and the output buffer
holding the block's scaled sum (`out0_4`), and this is what the pipeline asks of the body at every
grid point (`body_obligation`). It also fixes the contents `V` of the arrays when the region is
entered — the launch memory after the host lines before the region — and reduces the whole program to
the region continued by the host lines after it (`hmain`).
-/

-- membership of an index in a rectangle of these extents is decided coordinate by coordinate
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The program around the region -/

/-- The contents of a core's buffers when the region is entered: the launch memory after the three host
    lines before it (the embeddings converted, the labels reshaped to a column and to a row). -/
abbrev V0 (c : Dev nD) : Valuation τ sig (Elt F) := StableHlo.after (List.flatten [hostOps0]) (fun b => m (c, b))
/-- The same read at a buffer of the core. -/
abbrev V (c : Dev nD) (b : Ref sig .tc) : Buf (Elt F) ((c : Thread nD τ).loc b) := V0 m c (Proc.devRef .tc b)

/-- The host lines before the region allocate nothing. -/
theorem hostOps0_fresh : (hostOps0 : List (HloOp τ sig (Elt F))).Forall fun op => op.fresh = ∅ := by
  simp only [List.Forall]; repeat' constructor

/-- The whole program reduces to the region continued by the host lines after it (the sum of the
    output array and the division by the number of pairs), entered with the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-! ## The blocks the windows hold -/

/-- Window `w`'s block at grid point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the row-`bi` embeddings holds that block at every point, fetched there or kept from
    the point before (the block changes only when `bi` does), whenever the body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the row-`bj` embeddings, fetched at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the column of row-`bi` labels. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The same for the row of row-`bj` labels. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes -/

/-- Each access of the body is the whole of its staging buffer. -/
abbrev r0_0 : Rect S512x768 := Rect.unit (s := S512x768) ![0, 0] S512x768.size inb_S512x768_S512x768_0_0
abbrev r0_1 : Rect S512x768 := Rect.unit (s := S512x768) ![0, 0] S512x768.size inb_S512x768_S512x768_0_0
abbrev r0_2 : Rect S512x1 := Rect.unit (s := S512x1) ![0, 0] S512x1.size inb_S512x1_S512x1_0_0
abbrev r0_3 : Rect S1x512 := Rect.unit (s := S1x512) ![0, 0] S1x512.size inb_S1x512_S1x512_0_0
abbrev r0_4 : Rect S1x1x8x128 := Rect.unit (s := S1x1x8x128) ![0, 0, 0, 0] S1x1x8x128.size inb_S1x1x8x128_S1x1x8x128_0_0_0_0

/-- The output buffer after the body at grid coordinates `i`, from the four input blocks: its one store, of the
    block's masked and scaled sum spread over the 8 × 128 cells. The mask compares global row and column numbers,
    so the value depends on the point through the two offsets `512 · i 0` and `512 · i 1` (as 32-bit words). -/
def out0_4 (i : grid0.Coords) (x0 : Vec F S512x768 .bf16) (x1 : Vec F S512x768 .bf16) (l2 : Vec F S512x1 .i32) (l3 : Vec F S1x512 .i32) :
    Vec F S1x1x8x128 .f32 :=
  View.canon [⟨r0_4, k0_pay1 (Scalar.muli (BitVec.ofNat 32 (i 0).val) 512#32) (Scalar.muli (BitVec.ofNat 32 (i 1).val) 512#32)
    (k0_pay2 (View.ld x0 r0_0) (View.ld x1 r0_1)) (k0_pay3 (View.ld l2 r0_2) (View.ld l3 r0_3)) (k0_pay4 (View.ld x0 r0_0) (View.ld x1 r0_1))⟩]

/-- That one store is of the whole buffer, so it covers it. -/
theorem cover0_4 (p0 : Vec F S1x1x8x128 .f32) (y : S1x1x8x128.Idx) :
    ∃ pc ∈ ([⟨r0_4, p0⟩] : List (View.Piece (Elt F) S1x1x8x128 .f32)), y ∈ pc.1.set :=
  View.cover_of_tiled [⟨r0_4, p0⟩] S1x1x8x128.size (by rfl) y

/-! ## The pipeline's proof data -/

/-- The proof data of the pipeline on core `c`: the arrays as the region finds them; after the body at point `t`
    each input buffer still at its block and the output buffer at `out0_4` of the four blocks; nothing else held
    or owed. The two embedding windows read the SAME array, so each holds half of it; the other arrays are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (grid0.coords t) (iblk m c 0 t) (iblk m c 1 t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (grid0.coords t) (iblk m c 0 t) (iblk m c 1 t) (iblk m c 2 t) (iblk m c 3 t) := by dsimp only [dats]

/-- Each input buffer holds its block when the body starts, at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`: the invariant, what the core owes, and the five staging buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-! ## The body's triple -/

set_option maxHeartbeats 4000000 in
/-- The body at grid coordinates `i`, on whole staging buffers — the four inputs at contents `x0 x1 l2 l3`, the output
    at anything —, runs to the continuation with the inputs as they were and the output at `out0_4 i x0 x1 l2 l3`.
    The body loads the four inputs whole, loads the output buffer without using what it reads, and stores the output whole:
    the stored value is the payload of the printed arithmetic at what the four loads read. -/
theorem sound_kernel (c : Dev nD) (E : Set ℕ) (i : grid0.Coords)
    (arg2 : Memref sig .tc .vmem S512x768 .bf16) (harg2 : arg2.IsWhole) (arg3 : Memref sig .tc .vmem S512x768 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1x8x128 .f32) (harg6 : arg6.IsWhole)
    (x0 : Vec F S512x768 .bf16) (x1 : Vec F S512x768 .bf16) (l2 : Vec F S512x1 .i32) (l3 : Vec F S1x512 .i32) (K : PUnit → sProp 𝕄) :
    iprop(owns (c : Thread nD τ) arg2 fullShare x0 ∗ owns (c : Thread nD τ) arg3 fullShare x1
        ∗ owns (c : Thread nD τ) arg4 fullShare l2 ∗ owns (c : Thread nD τ) arg5 fullShare l3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare l2 ∗ owns (c : Thread nD τ) arg5 fullShare l3
            ∗ owns (c : Thread nD τ) arg6 fullShare (out0_4 i x0 x1 l2 l3)) -∗ K ⟨⟩))
      ⊢ wp frame (wpE (defs₀ (F := F)) Variants.none c none) E (cc0__contrastive_kernel i arg2 harg2 arg3 harg3 arg4 harg4 arg5 harg5 arg6 harg6) K := by
  simp only [cc0__contrastive_kernel_eq_skeleton]; unfold cc0__contrastive_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The body at any point: the input buffers hold their blocks (`before0_W`), so `sound_kernel` applies at the point's
    grid coordinates; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Body

end
-- ==== Proof.HostValues.lean ====
import proofs.«181027_j66391604461719_1_alg».proof.Proof.Body

/-!
# The host lines around the region, as values

Before the region the program converts the embeddings and reshapes the labels; after it, the program sums the
whole output array and divides by the number of strictly-upper pairs, 8386560. This module reads those lines as
plain functions of a valuation of the buffers:

* the final scalar is the quotient of the sum of the output array (started from the zero constant) by the constant
  8386560, whatever the other buffers hold;
* neither argument array is written by any line, before or after the region, so each keeps its launch contents.
-/

noncomputable section

namespace Cert.KernelIdeal.HostValues

open Cert.KernelIdeal Cert.KernelIdeal.Gen
open Idealize.ShloMosaic Idealize.ShloMosaic.TcCoe
open Idealize.SL.Sem

variable {F : FTy → Type} [FloatOps F]

/-! ## The lines after the region -/

/-- The result buffer after the four closing lines: the sum of the output array over all four axes, started from
    zero, divided by the pair count. -/
theorem after_hostOps1_main_v5 (W : Valuation τ sig (Elt F)) :
    StableHlo.after (hostOps1 (F := F)) W (Proc.devRef .tc main_v5)
      = (Host.divf
          (Host.reduceAdd (W (Proc.devRef .tc main_v3) : (⟨S8x8x8x128, .f32⟩ : BufTy).Contents (Elt F))
            (constant S_ .f32 0x00000000#32 : (⟨S_, .f32⟩ : BufTy).Contents (Elt F)) reducesTo_S8x8x8x128_S_d0_1_2_3 h_S_)
          (constant S_ .f32 0x4AFFF000#32 : (⟨S_, .f32⟩ : BufTy).Contents (Elt F)) : (⟨S_, .f32⟩ : BufTy).Contents (Elt F)) := by
  after_results

/-- The closing lines write neither argument array. -/
theorem after_hostOps1_main_arg0 (W : Valuation τ sig (Elt F)) :
    StableHlo.after (hostOps1 (F := F)) W (Proc.devRef .tc main_arg0) = W (Proc.devRef .tc main_arg0) := by
  after_results
theorem after_hostOps1_main_arg1 (W : Valuation τ sig (Elt F)) :
    StableHlo.after (hostOps1 (F := F)) W (Proc.devRef .tc main_arg1) = W (Proc.devRef .tc main_arg1) := by
  after_results

/-! ## The lines before the region -/

variable (m : (ℓ : Loc nD τ sig) → Buf (Elt F) ℓ)

/-- The opening lines write neither argument array: the region finds each at its launch contents. -/
theorem V_main_arg0 (c : Dev nD) : Body.V m c main_arg0 = m ((c.tc : Thread nD τ).loc main_arg0) := by
  show StableHlo.after hostOps0 (fun b => m (c, b)) (Proc.devRef .tc main_arg0) = _
  after_results
theorem V_main_arg1 (c : Dev nD) : Body.V m c main_arg1 = m ((c.tc : Thread nD τ).loc main_arg1) := by
  show StableHlo.after hostOps0 (fun b => m (c, b)) (Proc.devRef .tc main_arg1) = _
  after_results

end Cert.KernelIdeal.HostValues

end
-- ==== Proof.LaunchShared.lean ====
/-
  The launch of a pipeline two of whose input windows stage ONE array.

  Windows 0 and 1 both read the array of converted embeddings (one by row block, one by column
  block); windows 2 and 3 read the two reshapes of the labels; window 4 writes the array of
  per-block partial sums. The launch hands the pipeline each DISTINCT array buffer whole, at the
  full share. The proof data holds an input window's array at a share of its own, so the shared
  buffer is split in two halves — the left half for window 0, the right half for window 1 — and the
  two halves, which hold the same contents throughout (an input array is never written), are joined
  again when the region is left, so that the host operations after the region run holding every
  unscoped buffer whole.
-/
import proofs.«181027_j66391604461719_1_alg».proof.Proof.Gen.KernelIdeal.Launch
import proofs.«181027_j66391604461719_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The distinct array buffers, and the windows' arrays at their shares -/

/-- The buffers behind the five windows' arrays are four. -/
theorem image_arrRef : (Finset.univ.image (Pipeline.arrRef spec0) : Finset (Ref sig .tc)) = [main_v0, main_v1, main_v2, main_v3].toFinset := by
  decide

/-- The distinct array buffers, each whole at the full share, one by one. -/
theorem arrBufs_eq (c : Dev nD) (V : (b : Ref sig .tc) → Buf (Elt F) ((c.tc : Thread nD τ).loc b)) :
    (Pipeline.arrBufs spec0 c V : sProp 𝕄)
      = iprop((((c.tc : Thread nD τ).loc main_v0) ↦{fullShare} V main_v0) ∗ (((c.tc : Thread nD τ).loc main_v1) ↦{fullShare} V main_v1)
          ∗ (((c.tc : Thread nD τ).loc main_v2) ↦{fullShare} V main_v2) ∗ (((c.tc : Thread nD τ).loc main_v3) ↦{fullShare} V main_v3)) :=
  bigSep_eq_bigSepL_of_eq [main_v0, main_v1, main_v2, main_v3] image_arrRef (by decide) _

section Split

variable {c : Dev nD} (dat : Dat τ (Elt F) Unit ℕ (UR sig nD τ) ℕ cfg0 c)

/-- The four distinct array buffers whole at the full share are the five windows' arrays at the
    proof data's shares — the buffer two windows stage split in its two halves — whenever the
    contents asked of each window's array are the buffer's. -/
theorem arrBufs_iff_arrays
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (A : (w : Fin cfg0.W) → Buf (Elt F) ((cfg0.win w).arr.view.loc (c.tc : Thread nD τ)))
    (hA : ∀ w, A w = V (Pipeline.arrRef spec0 w)) :
    (Pipeline.arrBufs spec0 c V : sProp 𝕄) ⊣⊢ dat.arrays A := by
  rw [arrBufs_eq]
  unfold Dat.arrays
  rw [bigSep_W0]
  have s0 : dat.share 0 = fullShare.left := by unfold Dat.share; rw [if_neg (by decide), hq0]
  have s1 : dat.share 1 = fullShare.right := by unfold Dat.share; rw [if_neg (by decide), hq1]
  have s2 : dat.share 2 = fullShare := by unfold Dat.share; rw [if_neg (by decide), hq2]
  have s3 : dat.share 3 = fullShare := by unfold Dat.share; rw [if_neg (by decide), hq3]
  have s4 : dat.share 4 = fullShare := by unfold Dat.share; rw [if_pos (by decide)]
  rw [s0, s1, s2, s3, s4, (arr_whole0 0).set_eq_univ, (arr_whole0 2).set_eq_univ,
    (arr_whole0 3).set_eq_univ, (arr_whole0 4).set_eq_univ, hA 0, hA 1, hA 2, hA 3, hA 4]
  show _ ⊣⊢ iprop((((c.tc : Thread nD τ).loc main_v0) ↦{fullShare.left} V main_v0) ∗ (((c.tc : Thread nD τ).loc main_v0) ↦{fullShare.right} V main_v0)
      ∗ (((c.tc : Thread nD τ).loc main_v1) ↦{fullShare} V main_v1) ∗ (((c.tc : Thread nD τ).loc main_v2) ↦{fullShare} V main_v2)
      ∗ (((c.tc : Thread nD τ).loc main_v3) ↦{fullShare} V main_v3))
  constructor
  · iintro ⟨H0, H1, H2, H3⟩
    ihave H0 := (pointsTo_share (PosShare.mem_left_op_right fullShare)).1 $$ H0
    icases H0 with ⟨Ha, Hb⟩
    isplitl [Ha]; · iexact Ha
    isplitl [Hb]; · iexact Hb
    isplitl [H1]; · iexact H1
    isplitl [H2]; · iexact H2
    iexact H3
  · iintro ⟨Ha, Hb, H1, H2, H3⟩
    isplitl [Ha Hb]
    · iapply (pointsTo_share (PosShare.mem_left_op_right fullShare)).2
      isplitl [Ha]; · iexact Ha
      iexact Hb
    isplitl [H1]; · iexact H1
    isplitl [H2]; · iexact H2
    iexact H3

end Split

/-! ## The host operations after the region -/

section Tail

variable {c : Dev nD} (dat : Dat τ (Elt F) Unit ℕ (UR sig nD τ) ℕ cfg0 c)

/-- What the unscoped buffers hold when the region is left: the array of partial sums at what the
    write-backs made of it, every other buffer as the region found it (an input array is never written). -/
def exitVal (Vc : Valuation τ sig (Elt F)) : Valuation τ sig (Elt F) :=
  Function.update Vc (Proc.devRef .tc main_v3) (dat.arrAt 4 cfg0.N)

/-- The operations after the region touch unscoped TensorCore buffers only, -/
theorem hostOps1_uc : ∀ ops ∈ [hostOps1 (F := F)], ∀ op ∈ ops, op.bufs ⊆ Pipeline.ucRefs τ sig := by
  intro ops hops op hop
  obtain rfl : ops = hostOps1 := List.mem_singleton.mp hops
  exact Pipeline.sub_ucRefs op ((List.forall_iff_forall_mem.mp hostOps1_sub) op hop)

/-- name no fresh buffer, -/
theorem hostOps1_fresh : ∀ ops ∈ [hostOps1 (F := F)], ∀ op ∈ ops, op.fresh = ∅ := by
  intro ops hops op hop
  obtain rfl : ops = hostOps1 := List.mem_singleton.mp hops
  simp only [hostOps1, List.mem_cons, List.not_mem_nil, or_false] at hop
  rcases hop with rfl | rfl | rfl | rfl <;> rfl

/-- and write none of the pipeline's arrays. -/
theorem hostOps1_keep (w : Fin cfg0.W) : ∀ op ∈ hostOps1 (F := F), Proc.devRef .tc (Pipeline.arrRef spec0 w) ∉ op.writes := by
  intro op hop
  simp only [hostOps1, List.mem_cons, List.not_mem_nil, or_false] at hop
  rcases hop with rfl | rfl | rfl | rfl <;>
    simp only [StableHlo.nullary_writes, StableHlo.binary_writes, Finset.mem_singleton] <;>
    intro h <;> have h' := Proc.devRef_injective _ h <;> revert h' <;> fin_cases w <;> decide

end Tail

section Tail2

variable {c : Dev nD} (dat : Dat τ (Elt F) Unit ℕ (UR sig nD τ) ℕ cfg0 c)
  (hq0 : dat.q 0 = fullShare.left) (hq1 : dat.q 1 = fullShare.right) (hq2 : dat.q 2 = fullShare) (hq3 : dat.q 3 = fullShare)
  (Vc : Valuation τ sig (Elt F)) (hA : ∀ w, dat.A w = Vc (Proc.devRef .tc (Pipeline.arrRef spec0 w)))

include hA in
/-- Each window's array when the region is left is the exit contents' buffer: an input array as the
    region found it, the output array at its last write-back. -/
theorem arrAt_exit (w : Fin cfg0.W) : dat.arrAt w cfg0.N = exitVal dat Vc (Proc.devRef .tc (Pipeline.arrRef spec0 w)) := by
  have hne : ∀ b : Ref sig .tc, b ≠ main_v3 → Proc.devRef (τ := τ) .tc b ≠ Proc.devRef .tc main_v3 :=
    fun b h e => h (Proc.devRef_injective _ e)
  unfold exitVal
  fin_cases w
  · exact (dat.arrAt_in 0 rfl _).trans ((hA 0).trans (Function.update_of_ne (hne main_v0 (by decide)) (dat.arrAt 4 cfg0.N) Vc).symm)
  · exact (dat.arrAt_in 1 rfl _).trans ((hA 1).trans (Function.update_of_ne (hne main_v0 (by decide)) (dat.arrAt 4 cfg0.N) Vc).symm)
  · exact (dat.arrAt_in 2 rfl _).trans ((hA 2).trans (Function.update_of_ne (hne main_v1 (by decide)) (dat.arrAt 4 cfg0.N) Vc).symm)
  · exact (dat.arrAt_in 3 rfl _).trans ((hA 3).trans (Function.update_of_ne (hne main_v2 (by decide)) (dat.arrAt 4 cfg0.N) Vc).symm)
  · exact (Function.update_self (Proc.devRef (τ := τ) .tc main_v3) (dat.arrAt 4 cfg0.N) Vc).symm

/-- No buffer that bypasses the region is the output array, so the bypassing buffers hold the same at
    the entry contents and at the exit contents. -/
theorem rest_exit : (Pipeline.unscopedRestP Pipeline.Prefetch.none spec0 c (fun b => Vc (Proc.devRef .tc b)) : sProp 𝕄)
    = Pipeline.unscopedRestP Pipeline.Prefetch.none spec0 c (fun b => exitVal dat Vc (Proc.devRef .tc b)) := by
  unfold Pipeline.unscopedRestP
  refine bigSep_congr fun b hb => ?_
  have hb3 : Proc.devRef (τ := τ) .tc b ≠ Proc.devRef .tc main_v3 := by
    intro e
    obtain rfl : b = main_v3 := Proc.devRef_injective _ e
    exact (Finset.mem_sdiff.mp (Finset.mem_sdiff.mp hb).1).2 (Finset.mem_image.mpr ⟨(4 : Fin 5), Finset.mem_univ _, rfl⟩)
  have e : exitVal dat Vc (Proc.devRef .tc b) = Vc (Proc.devRef .tc b) := by
    unfold exitVal
    exact Function.update_of_ne hb3 (dat.arrAt 4 cfg0.N) Vc
  beta_reduce
  rw [e]

include hq0 hq1 hq2 hq3 hA in
/-- Leaving the region, the windows' arrays at their shares and the bypassing buffers are every
    unscoped buffer whole, at the exit contents: the two halves of the shared array are joined. -/
theorem held_exit :
    iprop(dat.arrays (dat.arrAt · cfg0.N) ∗ Pipeline.unscopedRestP Pipeline.Prefetch.none spec0 c (fun b => Vc (Proc.devRef .tc b)))
      ⊢ (StableHlo.held (c.tc : Thread nD τ) (Pipeline.ucRefs τ sig) (exitVal dat Vc) : sProp 𝕄) := by
  rw [rest_exit dat Vc, Pipeline.unscopedRestP_none,
    ← Pipeline.unscopedBufs_held (Ix := Unit) (Name := ℕ) (U := UR sig nD τ) (Lvl := ℕ) c (exitVal dat Vc),
    Pipeline.unscopedBufs_split₀ cfgs 0 winFacts₀0.arr_unscoped c]
  iintro ⟨HA, HZ⟩
  isplitl [HA]
  · iapply (arrBufs_iff_arrays dat hq0 hq1 hq2 hq3 (fun b => exitVal dat Vc (Proc.devRef .tc b)) (dat.arrAt · cfg0.N)
      (arrAt_exit dat Vc hA)).2
    iexact HA
  iexact HZ

include hq0 hq1 hq2 hq3 hA in
/-- After the host operations that follow the region — which write no array — every unscoped buffer
    whole is again the windows' arrays at their shares, unchanged, and the bypassing buffers at what
    the operations made of them. -/
theorem exit_after :
    (StableHlo.held (c.tc : Thread nD τ) (Pipeline.ucRefs τ sig) (StableHlo.after (hostOps1 (F := F)) (exitVal dat Vc)) : sProp 𝕄)
      ⊢ iprop(dat.arrays (dat.arrAt · cfg0.N)
          ∗ Pipeline.unscopedRestP Pipeline.Prefetch.none spec0 c (fun b => StableHlo.after (hostOps1 (F := F)) (exitVal dat Vc) (Proc.devRef .tc b))) := by
  rw [Pipeline.unscopedRestP_none,
    ← Pipeline.unscopedBufs_held (Ix := Unit) (Name := ℕ) (U := UR sig nD τ) (Lvl := ℕ) c (StableHlo.after (hostOps1 (F := F)) (exitVal dat Vc)),
    Pipeline.unscopedBufs_split₀ cfgs 0 winFacts₀0.arr_unscoped c]
  iintro ⟨HA, HZ⟩
  isplitl [HA]
  · iapply (arrBufs_iff_arrays dat hq0 hq1 hq2 hq3
      (fun b => StableHlo.after (hostOps1 (F := F)) (exitVal dat Vc) (Proc.devRef .tc b)) (dat.arrAt · cfg0.N)
      (fun w => (arrAt_exit dat Vc hA w).trans
        (StableHlo.after_of_forall_not_mem (hostOps1 (F := F)) (exitVal dat Vc) (hostOps1_keep w)).symm)).1
    iexact HA
  iexact HZ

include hq0 hq1 hq2 hq3 hA in
set_option backward.isDefEq.respectTransparency.types false in
/-- THE HOST OPERATIONS AFTER THE REGION run holding every unscoped buffer whole and hand back the
    windows' arrays at their shares, unchanged, with the bypassing buffers at the operations' results. -/
theorem tail_shared (𝒱₀ : Variants) (Q' : PUnit → sProp 𝕄) :
    iprop((iprop(dat.arrays (dat.arrAt · cfg0.N)
              ∗ Pipeline.unscopedRestP Pipeline.Prefetch.none spec0 c (fun b => StableHlo.after (hostOps1 (F := F)) (exitVal dat Vc) (Proc.devRef .tc b))) -∗ Q' ⟨⟩)
        ∗ boundary (c.tc : Thread nD τ) ∗ dat.arrays (dat.arrAt · cfg0.N)
        ∗ Pipeline.unscopedRestP Pipeline.Prefetch.none spec0 c (fun b => Vc (Proc.devRef .tc b)))
      ⊢ wp frame (wpE (Pipeline.defs (fun q => (cfgs q).toPCfg (Val := Elt F)) defs₀) (Variants.lift 𝒱₀) (c.tc : Thread nD τ) none) Set.univ
          (Pipeline.chain ([hostOps1 (F := F)].map StableHlo.seq)) Q' := by
  rw [← List.append_nil ([hostOps1 (F := F)].map StableHlo.seq)]
  iintro ⟨Hk, Hb, HAZ⟩
  ihave HH := (held_exit dat hq0 hq1 hq2 hq3 Vc hA) $$ HAZ
  iapply (Pipeline.wp_seqs_then (fun q => (cfgs q).toPCfg (Val := Elt F)) defs₀ 𝒱₀ c (Pipeline.ucRefs τ sig) [] [hostOps1 (F := F)]
    hostOps1_uc hostOps1_fresh (exitVal dat Vc)) $$ [Hb HH]
  · isplitl [Hb] <;> iassumption
  iintro Hb
  rw [Pipeline.chain_nil, wp_pure]
  imodintro
  iapply Hk
  icases Hb with ⟨-, H⟩
  rw [show StableHlo.after ([hostOps1 (F := F)]).flatten (exitVal dat Vc) = StableHlo.after (hostOps1 (F := F)) (exitVal dat Vc) from by
    rw [List.flatten_cons, List.flatten_nil, List.append_nil]]
  iapply (exit_after dat hq0 hq1 hq2 hq3 Vc hA)
  iexact H

end Tail2

/-! ## The run -/

section Run

variable (m : (ℓ : Loc nD τ sig) → Buf (Elt F) ℓ) (ρ : Dev nD → PrngReg)
variable (dats : (p : Fin 1) → (c : Dev nD) → Dat τ (Elt F) Unit ℕ (UR sig nD τ) ℕ (cfgs p) c)

set_option backward.isDefEq.respectTransparency.types false in
/-- THE RUN: @main — host operations, the region, host operations — terminates from any memory with zero counters;
    every window's array ends at what the proof data computes (`Dat.arrAt … N`), and every other unscoped buffer at
    what the host operations after the region make of the region's exit contents. -/
theorem run_shared (𝒱₀ : Variants)
    (hbody : ∀ c, BodyObligationLoose (dats 0 c) (defs₀ (F := F)) 𝒱₀ () Set.univ)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (howed : ∀ c t, (dats 0 c).owed t = 0)
    (V₀ : Dev nD → Valuation τ sig (Elt F))
    (hmain : Pipeline.HMainK (Ix := Unit) (Name := ℕ) (U := UR sig nD τ) (Lvl := ℕ) cfgs 0 defs₀ 𝒱₀ m (main (F := F))
      (fun c b => V₀ c (Proc.devRef .tc b)) (fun _ => Pipeline.chain [StableHlo.seq (hostOps1 (F := F))]))
    (hA : ∀ c w, (dats 0 c).A w = V₀ c (Proc.devRef .tc (Pipeline.arrRef spec0 w)))
    (hΦ : ∀ c t, (dats 0 c).Φ t = Pipeline.ΦA spec0 c) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ Pipeline.restRefsP sig Pipeline.Prefetch.none spec0, r.2.mem ((c.tc : Thread nD τ).loc b)
          = StableHlo.after (hostOps1 (F := F)) (exitVal (dats 0 c) (V₀ c)) (Proc.devRef .tc b)) := by
  classical
  have hinj : Function.Injective (cellOf (nD := nD) (τ := τ)
      (Pipeline.pin (fun q => (cfgs q).toPCfg (Val := Elt F)) (fun q => (cfgs q).toPCfg_adm))) := cellOf_inj
  exact Pipeline.θ_run_region_pf_tail (fun q => (cfgs q).toPCfg (Val := Elt F)) (fun q => (cfgs q).toPCfg_adm) dats () hinj
    (0 : Fin 1) winFacts₀0 (Pipeline.OwnSemFacts.none spec0) (Pipeline.PreFacts.none _) emb₁ defs₀ 𝒱₀ m ρ main
    (fun _ => Pipeline.chain [StableHlo.seq (hostOps1 (F := F))]) hbody block_pos0 arr_whole0 stage_whole0 howed
    (G := fun _ => iprop(emp))
    (u₀ := initOf (Pipeline.cells (Pipeline.pin (fun q => (cfgs q).toPCfg (Val := Elt F)) (fun q => (cfgs q).toPCfg_adm)) hinj)
      (Pipeline.launchToks (Pipeline.pin (fun q => (cfgs q).toPCfg (Val := Elt F)) (fun q => (cfgs q).toPCfg_adm)) hinj))
    (hu₀ := by
      iintro Hu; imodintro
      isplitl [Hu]
      · iapply (show (ownU _ : sProp 𝕄) ⊢ BI.own (emb₁ (initOf (Pipeline.cells (Pipeline.pin (fun q => (cfgs q).toPCfg (Val := Elt F)) (fun q => (cfgs q).toPCfg_adm)) hinj)
          (Pipeline.launchToks (Pipeline.pin (fun q => (cfgs q).toPCfg (Val := Elt F)) (fun q => (cfgs q).toPCfg_adm)) hinj))) from .rfl)
        iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := fun c => (arrBufs_iff_arrays (dats 0 c) (hq0 c) (hq1 c) (hq2 c) (hq3 c) _ _ (fun w => hA c w)).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (fun b => V₀ c (Proc.devRef .tc b)))
    (Z' := fun c => Pipeline.unscopedRestP (Ix := Unit) (Name := ℕ) (U := UR sig nD τ) (Lvl := ℕ) Pipeline.Prefetch.none spec0 c
      (fun b => StableHlo.after (hostOps1 (F := F)) (exitVal (dats 0 c) (V₀ c)) (Proc.devRef .tc b)))
    (hX := fun c => by
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr] <;> iassumption)
    (hout := fun c => by
      rw [hΦ, Pipeline.ownSems0_none]; unfold Pipeline.ΦA
      iintro ⟨Hr, Hp⟩
      isplitl [Hp]; · iexact Hp
      isplitr; · iempintro
      iexact Hr)
    (htail := fun c Q' => tail_shared (dats 0 c) (hq0 c) (hq1 c) (hq2 c) (hq3 c) (V₀ c) (hA c) 𝒱₀ Q')
    (QY := fun c s => ∀ b ∈ Pipeline.restRefsP sig Pipeline.Prefetch.none spec0, s.mem ((c.tc : Thread nD τ).loc b)
        = StableHlo.after (hostOps1 (F := F)) (exitVal (dats 0 c) (V₀ c)) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => StableHlo.after (hostOps1 (F := F)) (exitVal (dats 0 c) (V₀ c)) (Proc.devRef .tc b)) s')
      isplitl [HU] <;> iassumption)
    (hQ := fun s h c => ⟨(h c).1, (h c).2.2⟩)

end Run

end Cert.KernelIdeal.Shared

end
-- ==== Proof.RunMain.lean ====
import proofs.«181027_j66391604461719_1_alg».proof.Proof.Body
import proofs.«181027_j66391604461719_1_alg».proof.Proof.HostValues
import proofs.«181027_j66391604461719_1_alg».proof.Proof.LaunchShared

/-!
# The run of the whole program

The body's obligation at every grid point, handed to the launch of a pipeline whose two embedding windows read one
array, gives a run of the whole program: it terminates, the array of per-block partial sums ends at what the proof
data computes from the write-backs, and every buffer that bypasses the region ends at what the closing host lines
make of the region's exit contents.

Read at the three buffers that matter, this says: the two argument arrays end as they were launched (no line writes
them), and the result is the sum of the array of partial sums divided by the number of strictly-upper pairs.
-/

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat BodyObligation BodyObligationLoose)

variable {F : FTy → Type} [FloatOps F]

variable (m : (ℓ : Loc nD τ sig) → Buf (Elt F) ℓ) (ρ : Dev nD → PrngReg)

/-! ## The run -/

/-- From any memory with zero counters the program terminates; each window's array ends at what the proof data
    computes, and each bypassing buffer at what the closing lines make of the exit contents. -/
theorem run_main : θ_run defs (onTc (τ := τ) (main (F := F))) (s₀ m ρ) (fun r => ∀ c : Dev nD,
      (∀ w, r.2.mem ((spec0 w).arr.view.loc (c.tc : Thread nD τ)) = (Body.dats m 0 c).arrAt w cfg0.N)
      ∧ ∀ b ∈ Pipeline.restRefsP sig Pipeline.Prefetch.none spec0, r.2.mem ((c.tc : Thread nD τ).loc b)
          = StableHlo.after (hostOps1 (F := F)) (Shared.exitVal (Body.dats m 0 c) (Body.V0 m c)) (Proc.devRef .tc b)) :=
  Shared.run_shared m ρ (Body.dats m) Variants.none (fun c => (Body.body_obligation m c).loose)
    (fun _ => rfl) (fun _ => rfl) (fun _ => rfl) (fun _ => rfl) (fun _ _ => rfl)
    (Body.V0 m) (Body.hmain m Variants.none) (Body.A_eq m) (fun _ _ => rfl)

/-! ## The buffers that bypass the region -/

/-- An unscoped buffer that is no window's array bypasses the region. -/
theorem mem_rest (b : Ref sig .tc) (hs : b.isScoped = false) (ha : ∀ w, (spec0 w).arr.view.ref ≠ b) :
    b ∈ Pipeline.restRefsP sig Pipeline.Prefetch.none spec0 :=
  Finset.mem_sdiff.mpr ⟨Pipeline.mem_restRefs_of b hs ha, fun h => (Finset.mem_image.mp h).elim fun k _ => k.elim0⟩

theorem main_arg0_rest : main_arg0 ∈ Pipeline.restRefsP sig Pipeline.Prefetch.none spec0 := mem_rest main_arg0 rfl (by decide)
theorem main_arg1_rest : main_arg1 ∈ Pipeline.restRefsP sig Pipeline.Prefetch.none spec0 := mem_rest main_arg1 rfl (by decide)
theorem main_v5_rest : main_v5 ∈ Pipeline.restRefsP sig Pipeline.Prefetch.none spec0 := mem_rest main_v5 rfl (by decide)

/-! ## The exit contents -/

section Exit

variable {c : Dev nD} (dat : Dat τ (Elt F) Unit ℕ (UR sig nD τ) ℕ cfg0 c) (Vc : Valuation τ sig (Elt F))

/-- Away from the array of partial sums the region's exit contents are its entry contents. -/
theorem exitVal_of_ne (b : Ref sig .tc) (h : b ≠ main_v3) : Shared.exitVal dat Vc (Proc.devRef .tc b) = Vc (Proc.devRef .tc b) := by
  unfold Shared.exitVal
  exact Function.update_of_ne (StableHlo.devRef_ne_of_ne h) _ _

/-- At the array of partial sums they are what the write-backs made of it. -/
theorem exitVal_main_v3 : Shared.exitVal dat Vc (Proc.devRef .tc main_v3) = dat.arrAt 4 cfg0.N := by
  unfold Shared.exitVal
  exact Function.update_self _ _ _

end Exit

/-- The first argument array after the closing lines: its launch contents. -/
theorem end_main_arg0 (c : Dev nD) :
    StableHlo.after (hostOps1 (F := F)) (Shared.exitVal (Body.dats m 0 c) (Body.V0 m c)) (Proc.devRef .tc main_arg0)
      = m ((c.tc : Thread nD τ).loc main_arg0) := by
  rw [HostValues.after_hostOps1_main_arg0, exitVal_of_ne _ _ main_arg0 (by decide)]
  exact HostValues.V_main_arg0 m c

/-- The second argument array after the closing lines: its launch contents. -/
theorem end_main_arg1 (c : Dev nD) :
    StableHlo.after (hostOps1 (F := F)) (Shared.exitVal (Body.dats m 0 c) (Body.V0 m c)) (Proc.devRef .tc main_arg1)
      = m ((c.tc : Thread nD τ).loc main_arg1) := by
  rw [HostValues.after_hostOps1_main_arg1, exitVal_of_ne _ _ main_arg1 (by decide)]
  exact HostValues.V_main_arg1 m c

/-- The result after the closing lines: the sum of the array of partial sums, as the write-backs left it, over the pair count. -/
theorem end_main_v5 (c : Dev nD) :
    StableHlo.after (hostOps1 (F := F)) (Shared.exitVal (Body.dats m 0 c) (Body.V0 m c)) (Proc.devRef .tc main_v5)
      = (Host.divf
          (Host.reduceAdd ((Body.dats m 0 c).arrAt 4 cfg0.N : (⟨S8x8x8x128, .f32⟩ : BufTy).Contents (Elt F))
            (constant S_ .f32 0x00000000#32 : (⟨S_, .f32⟩ : BufTy).Contents (Elt F)) reducesTo_S8x8x8x128_S_d0_1_2_3 h_S_)
          (constant S_ .f32 0x4AFFF000#32 : (⟨S_, .f32⟩ : BufTy).Contents (Elt F)) : (⟨S_, .f32⟩ : BufTy).Contents (Elt F)) := by
  rw [HostValues.after_hostOps1_main_v5, exitVal_main_v3]

/-! ## The frame and the value -/

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 main_arg0_rest).trans (end_main_arg0 m c),
      ((h c).2 main_arg1 main_arg1_rest).trans (end_main_arg1 m c)⟩) (run_main m ρ)

/-- The program runs; its result is the sum of the array of partial sums over the pair count, and its argument
    arrays end unchanged. -/
theorem run_value : θ_run defs (onTc (τ := τ) (main (F := F))) ⟨m, fun _ => 0, ρ⟩ (fun r => ∀ c : Dev nD,
      r.2.mem ((c.tc : Thread nD τ).loc main_v5)
        = (Host.divf
            (Host.reduceAdd ((Body.dats m 0 c).arrAt 4 cfg0.N : (⟨S8x8x8x128, .f32⟩ : BufTy).Contents (Elt F))
              (constant S_ .f32 0x00000000#32 : (⟨S_, .f32⟩ : BufTy).Contents (Elt F)) reducesTo_S8x8x8x128_S_d0_1_2_3 h_S_)
            (constant S_ .f32 0x4AFFF000#32 : (⟨S_, .f32⟩ : BufTy).Contents (Elt F)) : (⟨S_, .f32⟩ : BufTy).Contents (Elt F))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v5 main_v5_rest).trans (end_main_v5 m c),
      ((h c).2 main_arg0 main_arg0_rest).trans (end_main_arg0 m c),
      ((h c).2 main_arg1 main_arg1_rest).trans (end_main_arg1 m c)⟩) (run_main m ρ)

end Cert.KernelIdeal.Run

end
-- ==== Proof.BodyBits.lean ====
import proofs.«181027_j66391604461719_1_alg».proof.Proof.Gen.Kernel.Launch
import proofs.«181027_j66391604461719_1_alg».proof.Proof.Gen.Kernel.Skeleton
import proofs.«181027_j66391604461719_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The kernel body at one grid point

The pair matrix of the contrastive loss is cut into an 8 × 8 grid of 512 × 512 blocks. At grid point
`(bi, bj)` the body reads four blocks — rows `bi` and rows `bj` of the embeddings, the labels of
rows `bi` as a column and the labels of rows `bj` as a row —, forms the masked pair losses of the
block, adds them up, scales the sum by `2⁻¹⁰` and writes that one number to every cell of its
8 × 128 output block.

This module states that fact in separation logic, for any float instance: started on staging buffers
that hold the four input blocks, the body ends with the inputs untouched and the output buffer
holding the block's scaled sum (`out0_4`), and this is what the pipeline asks of the body at every
grid point (`body_obligation`). It also fixes the contents `V` of the arrays when the region is
entered — the launch memory after the host lines before the region — and reduces the whole program to
the region continued by the host lines after it (`hmain`).
-/

-- membership of an index in a rectangle of these extents is decided coordinate by coordinate
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The program around the region -/

/-- The contents of a core's buffers when the region is entered: the launch memory after the three host
    lines before it (the embeddings converted, the labels reshaped to a column and to a row). -/
abbrev V0 (c : Dev nD) : Valuation τ sig (Elt F) := StableHlo.after (List.flatten [hostOps0]) (fun b => m (c, b))
/-- The same read at a buffer of the core. -/
abbrev V (c : Dev nD) (b : Ref sig .tc) : Buf (Elt F) ((c : Thread nD τ).loc b) := V0 m c (Proc.devRef .tc b)

/-- The host lines before the region allocate nothing. -/
theorem hostOps0_fresh : (hostOps0 : List (HloOp τ sig (Elt F))).Forall fun op => op.fresh = ∅ := by
  simp only [List.Forall]; repeat' constructor

/-- The whole program reduces to the region continued by the host lines after it (the sum of the
    output array and the division by the number of pairs), entered with the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-! ## The blocks the windows hold -/

/-- Window `w`'s block at grid point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the row-`bi` embeddings holds that block at every point, fetched there or kept from
    the point before (the block changes only when `bi` does), whenever the body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the row-`bj` embeddings, fetched at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same for the column of row-`bi` labels. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The same for the row of row-`bj` labels. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes -/

/-- Each access of the body is the whole of its staging buffer. -/
abbrev r0_0 : Rect S512x768 := Rect.unit (s := S512x768) ![0, 0] S512x768.size inb_S512x768_S512x768_0_0
abbrev r0_1 : Rect S512x768 := Rect.unit (s := S512x768) ![0, 0] S512x768.size inb_S512x768_S512x768_0_0
abbrev r0_2 : Rect S512x1 := Rect.unit (s := S512x1) ![0, 0] S512x1.size inb_S512x1_S512x1_0_0
abbrev r0_3 : Rect S1x512 := Rect.unit (s := S1x512) ![0, 0] S1x512.size inb_S1x512_S1x512_0_0
abbrev r0_4 : Rect S1x1x8x128 := Rect.unit (s := S1x1x8x128) ![0, 0, 0, 0] S1x1x8x128.size inb_S1x1x8x128_S1x1x8x128_0_0_0_0

/-- The output buffer after the body at grid coordinates `i`, from the four input blocks: its one store, of the
    block's masked and scaled sum spread over the 8 × 128 cells. The mask compares global row and column numbers,
    so the value depends on the point through the two offsets `512 · i 0` and `512 · i 1` (as 32-bit words). -/
def out0_4 (i : grid0.Coords) (x0 : Vec F S512x768 .bf16) (x1 : Vec F S512x768 .bf16) (l2 : Vec F S512x1 .i32) (l3 : Vec F S1x512 .i32) :
    Vec F S1x1x8x128 .f32 :=
  View.canon [⟨r0_4, k0_pay1 (Scalar.muli (BitVec.ofNat 32 (i 0).val) 512#32) (Scalar.muli (BitVec.ofNat 32 (i 1).val) 512#32)
    (k0_pay2 (View.ld x0 r0_0) (View.ld x1 r0_1)) (k0_pay3 (View.ld l2 r0_2) (View.ld l3 r0_3)) (k0_pay4 (View.ld x0 r0_0) (View.ld x1 r0_1))⟩]

/-- That one store is of the whole buffer, so it covers it. -/
theorem cover0_4 (p0 : Vec F S1x1x8x128 .f32) (y : S1x1x8x128.Idx) :
    ∃ pc ∈ ([⟨r0_4, p0⟩] : List (View.Piece (Elt F) S1x1x8x128 .f32)), y ∈ pc.1.set :=
  View.cover_of_tiled [⟨r0_4, p0⟩] S1x1x8x128.size (by rfl) y

/-! ## The pipeline's proof data -/

/-- The proof data of the pipeline on core `c`: the arrays as the region finds them; after the body at point `t`
    each input buffer still at its block and the output buffer at `out0_4` of the four blocks; nothing else held
    or owed. The two embedding windows read the SAME array, so each holds half of it; the other arrays are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (grid0.coords t) (iblk m c 0 t) (iblk m c 1 t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (grid0.coords t) (iblk m c 0 t) (iblk m c 1 t) (iblk m c 2 t) (iblk m c 3 t) := by dsimp only [dats]

/-- Each input buffer holds its block when the body starts, at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`: the invariant, what the core owes, and the five staging buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-! ## The body's triple -/

set_option maxHeartbeats 4000000 in
/-- The body at grid coordinates `i`, on whole staging buffers — the four inputs at contents `x0 x1 l2 l3`, the output
    at anything —, runs to the continuation with the inputs as they were and the output at `out0_4 i x0 x1 l2 l3`.
    The body loads the four inputs whole, loads the output buffer without using what it reads, and stores the output whole:
    the stored value is the payload of the printed arithmetic at what the four loads read. -/
theorem sound_kernel (c : Dev nD) (E : Set ℕ) (i : grid0.Coords)
    (arg2 : Memref sig .tc .vmem S512x768 .bf16) (harg2 : arg2.IsWhole) (arg3 : Memref sig .tc .vmem S512x768 .bf16) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S1x1x8x128 .f32) (harg6 : arg6.IsWhole)
    (x0 : Vec F S512x768 .bf16) (x1 : Vec F S512x768 .bf16) (l2 : Vec F S512x1 .i32) (l3 : Vec F S1x512 .i32) (K : PUnit → sProp 𝕄) :
    iprop(owns (c : Thread nD τ) arg2 fullShare x0 ∗ owns (c : Thread nD τ) arg3 fullShare x1
        ∗ owns (c : Thread nD τ) arg4 fullShare l2 ∗ owns (c : Thread nD τ) arg5 fullShare l3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare l2 ∗ owns (c : Thread nD τ) arg5 fullShare l3
            ∗ owns (c : Thread nD τ) arg6 fullShare (out0_4 i x0 x1 l2 l3)) -∗ K ⟨⟩))
      ⊢ wp frame (wpE (defs₀ (F := F)) Variants.none c none) E (cc0__contrastive_kernel i arg2 harg2 arg3 harg3 arg4 harg4 arg5 harg5 arg6 harg6) K := by
  simp only [cc0__contrastive_kernel_eq_skeleton]; unfold cc0__contrastive_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The body at any point: the input buffers hold their blocks (`before0_W`), so `sound_kernel` applies at the point's
    grid coordinates; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.Kernel.Body

end
-- ==== Proof.HostValuesBits.lean ====
import proofs.«181027_j66391604461719_1_alg».proof.Proof.BodyBits

/-!
# The host lines around the region, as values

Before the region the program converts the embeddings and reshapes the labels; after it, the program sums the
whole output array and divides by the number of strictly-upper pairs, 8386560. This module reads those lines as
plain functions of a valuation of the buffers:

* the final scalar is the quotient of the sum of the output array (started from the zero constant) by the constant
  8386560, whatever the other buffers hold;
* neither argument array is written by any line, before or after the region, so each keeps its launch contents.
-/

noncomputable section

namespace Cert.Kernel.HostValues

open Cert.Kernel Cert.Kernel.Gen
open Idealize.ShloMosaic Idealize.ShloMosaic.TcCoe
open Idealize.SL.Sem

variable {F : FTy → Type} [FloatOps F]

/-! ## The lines after the region -/

/-- The result buffer after the four closing lines: the sum of the output array over all four axes, started from
    zero, divided by the pair count. -/
theorem after_hostOps1_main_v5 (W : Valuation τ sig (Elt F)) :
    StableHlo.after (hostOps1 (F := F)) W (Proc.devRef .tc main_v5)
      = (Host.divf
          (Host.reduceAdd (W (Proc.devRef .tc main_v3) : (⟨S8x8x8x128, .f32⟩ : BufTy).Contents (Elt F))
            (constant S_ .f32 0x00000000#32 : (⟨S_, .f32⟩ : BufTy).Contents (Elt F)) reducesTo_S8x8x8x128_S_d0_1_2_3 h_S_)
          (constant S_ .f32 0x4AFFF000#32 : (⟨S_, .f32⟩ : BufTy).Contents (Elt F)) : (⟨S_, .f32⟩ : BufTy).Contents (Elt F)) := by
  after_results

/-- The closing lines write neither argument array. -/
theorem after_hostOps1_main_arg0 (W : Valuation τ sig (Elt F)) :
    StableHlo.after (hostOps1 (F := F)) W (Proc.devRef .tc main_arg0) = W (Proc.devRef .tc main_arg0) := by
  after_results
theorem after_hostOps1_main_arg1 (W : Valuation τ sig (Elt F)) :
    StableHlo.after (hostOps1 (F := F)) W (Proc.devRef .tc main_arg1) = W (Proc.devRef .tc main_arg1) := by
  after_results

/-! ## The lines before the region -/

variable (m : (ℓ : Loc nD τ sig) → Buf (Elt F) ℓ)

/-- The opening lines write neither argument array: the region finds each at its launch contents. -/
theorem V_main_arg0 (c : Dev nD) : Body.V m c main_arg0 = m ((c.tc : Thread nD τ).loc main_arg0) := by
  show StableHlo.after hostOps0 (fun b => m (c, b)) (Proc.devRef .tc main_arg0) = _
  after_results
theorem V_main_arg1 (c : Dev nD) : Body.V m c main_arg1 = m ((c.tc : Thread nD τ).loc main_arg1) := by
  show StableHlo.after hostOps0 (fun b => m (c, b)) (Proc.devRef .tc main_arg1) = _
  after_results

end Cert.Kernel.HostValues

end
-- ==== Proof.LaunchSharedBits.lean ====
/-
  The launch of a pipeline two of whose input windows stage ONE array.

  Windows 0 and 1 both read the array of converted embeddings (one by row block, one by column
  block); windows 2 and 3 read the two reshapes of the labels; window 4 writes the array of
  per-block partial sums. The launch hands the pipeline each DISTINCT array buffer whole, at the
  full share. The proof data holds an input window's array at a share of its own, so the shared
  buffer is split in two halves — the left half for window 0, the right half for window 1 — and the
  two halves, which hold the same contents throughout (an input array is never written), are joined
  again when the region is left, so that the host operations after the region run holding every
  unscoped buffer whole.
-/
import proofs.«181027_j66391604461719_1_alg».proof.Proof.Gen.Kernel.Launch
import proofs.«181027_j66391604461719_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The distinct array buffers, and the windows' arrays at their shares -/

/-- The buffers behind the five windows' arrays are four. -/
theorem image_arrRef : (Finset.univ.image (Pipeline.arrRef spec0) : Finset (Ref sig .tc)) = [main_v0, main_v1, main_v2, main_v3].toFinset := by
  decide

/-- The distinct array buffers, each whole at the full share, one by one. -/
theorem arrBufs_eq (c : Dev nD) (V : (b : Ref sig .tc) → Buf (Elt F) ((c.tc : Thread nD τ).loc b)) :
    (Pipeline.arrBufs spec0 c V : sProp 𝕄)
      = iprop((((c.tc : Thread nD τ).loc main_v0) ↦{fullShare} V main_v0) ∗ (((c.tc : Thread nD τ).loc main_v1) ↦{fullShare} V main_v1)
          ∗ (((c.tc : Thread nD τ).loc main_v2) ↦{fullShare} V main_v2) ∗ (((c.tc : Thread nD τ).loc main_v3) ↦{fullShare} V main_v3)) :=
  bigSep_eq_bigSepL_of_eq [main_v0, main_v1, main_v2, main_v3] image_arrRef (by decide) _

section Split

variable {c : Dev nD} (dat : Dat τ (Elt F) Unit ℕ (UR sig nD τ) ℕ cfg0 c)

/-- The four distinct array buffers whole at the full share are the five windows' arrays at the
    proof data's shares — the buffer two windows stage split in its two halves — whenever the
    contents asked of each window's array are the buffer's. -/
theorem arrBufs_iff_arrays
    (hq0 : dat.q 0 = fullShare.left) (hq1 : dat.q 1 = fullShare.right) (hq2 : dat.q 2 = fullShare) (hq3 : dat.q 3 = fullShare)
    (V : (b : Ref sig .tc) → Buf (Elt F) ((c.tc : Thread nD τ).loc b))
    (A : (w : Fin cfg0.W) → Buf (Elt F) ((cfg0.win w).arr.view.loc (c.tc : Thread nD τ)))
    (hA : ∀ w, A w = V (Pipeline.arrRef spec0 w)) :
    (Pipeline.arrBufs spec0 c V : sProp 𝕄) ⊣⊢ dat.arrays A := by
  rw [arrBufs_eq]
  unfold Dat.arrays
  rw [bigSep_W0]
  have s0 : dat.share 0 = fullShare.left := by unfold Dat.share; rw [if_neg (by decide), hq0]
  have s1 : dat.share 1 = fullShare.right := by unfold Dat.share; rw [if_neg (by decide), hq1]
  have s2 : dat.share 2 = fullShare := by unfold Dat.share; rw [if_neg (by decide), hq2]
  have s3 : dat.share 3 = fullShare := by unfold Dat.share; rw [if_neg (by decide), hq3]
  have s4 : dat.share 4 = fullShare := by unfold Dat.share; rw [if_pos (by decide)]
  rw [s0, s1, s2, s3, s4, (arr_whole0 0).set_eq_univ, (arr_whole0 2).set_eq_univ,
    (arr_whole0 3).set_eq_univ, (arr_whole0 4).set_eq_univ, hA 0, hA 1, hA 2, hA 3, hA 4]
  show _ ⊣⊢ iprop((((c.tc : Thread nD τ).loc main_v0) ↦{fullShare.left} V main_v0) ∗ (((c.tc : Thread nD τ).loc main_v0) ↦{fullShare.right} V main_v0)
      ∗ (((c.tc : Thread nD τ).loc main_v1) ↦{fullShare} V main_v1) ∗ (((c.tc : Thread nD τ).loc main_v2) ↦{fullShare} V main_v2)
      ∗ (((c.tc : Thread nD τ).loc main_v3) ↦{fullShare} V main_v3))
  constructor
  · iintro ⟨H0, H1, H2, H3⟩
    ihave H0 := (pointsTo_share (PosShare.mem_left_op_right fullShare)).1 $$ H0
    icases H0 with ⟨Ha, Hb⟩
    isplitl [Ha]; · iexact Ha
    isplitl [Hb]; · iexact Hb
    isplitl [H1]; · iexact H1
    isplitl [H2]; · iexact H2
    iexact H3
  · iintro ⟨Ha, Hb, H1, H2, H3⟩
    isplitl [Ha Hb]
    · iapply (pointsTo_share (PosShare.mem_left_op_right fullShare)).2
      isplitl [Ha]; · iexact Ha
      iexact Hb
    isplitl [H1]; · iexact H1
    isplitl [H2]; · iexact H2
    iexact H3

end Split

/-! ## The host operations after the region -/

section Tail

variable {c : Dev nD} (dat : Dat τ (Elt F) Unit ℕ (UR sig nD τ) ℕ cfg0 c)

/-- What the unscoped buffers hold when the region is left: the array of partial sums at what the
    write-backs made of it, every other buffer as the region found it (an input array is never written). -/
def exitVal (Vc : Valuation τ sig (Elt F)) : Valuation τ sig (Elt F) :=
  Function.update Vc (Proc.devRef .tc main_v3) (dat.arrAt 4 cfg0.N)

/-- The operations after the region touch unscoped TensorCore buffers only, -/
theorem hostOps1_uc : ∀ ops ∈ [hostOps1 (F := F)], ∀ op ∈ ops, op.bufs ⊆ Pipeline.ucRefs τ sig := by
  intro ops hops op hop
  obtain rfl : ops = hostOps1 := List.mem_singleton.mp hops
  exact Pipeline.sub_ucRefs op ((List.forall_iff_forall_mem.mp hostOps1_sub) op hop)

/-- name no fresh buffer, -/
theorem hostOps1_fresh : ∀ ops ∈ [hostOps1 (F := F)], ∀ op ∈ ops, op.fresh = ∅ := by
  intro ops hops op hop
  obtain rfl : ops = hostOps1 := List.mem_singleton.mp hops
  simp only [hostOps1, List.mem_cons, List.not_mem_nil, or_false] at hop
  rcases hop with rfl | rfl | rfl | rfl <;> rfl

/-- and write none of the pipeline's arrays. -/
theorem hostOps1_keep (w : Fin cfg0.W) : ∀ op ∈ hostOps1 (F := F), Proc.devRef .tc (Pipeline.arrRef spec0 w) ∉ op.writes := by
  intro op hop
  simp only [hostOps1, List.mem_cons, List.not_mem_nil, or_false] at hop
  rcases hop with rfl | rfl | rfl | rfl <;>
    simp only [StableHlo.nullary_writes, StableHlo.binary_writes, Finset.mem_singleton] <;>
    intro h <;> have h' := Proc.devRef_injective _ h <;> revert h' <;> fin_cases w <;> decide

end Tail

section Tail2

variable {c : Dev nD} (dat : Dat τ (Elt F) Unit ℕ (UR sig nD τ) ℕ cfg0 c)
  (hq0 : dat.q 0 = fullShare.left) (hq1 : dat.q 1 = fullShare.right) (hq2 : dat.q 2 = fullShare) (hq3 : dat.q 3 = fullShare)
  (Vc : Valuation τ sig (Elt F)) (hA : ∀ w, dat.A w = Vc (Proc.devRef .tc (Pipeline.arrRef spec0 w)))

include hA in
/-- Each window's array when the region is left is the exit contents' buffer: an input array as the
    region found it, the output array at its last write-back. -/
theorem arrAt_exit (w : Fin cfg0.W) : dat.arrAt w cfg0.N = exitVal dat Vc (Proc.devRef .tc (Pipeline.arrRef spec0 w)) := by
  have hne : ∀ b : Ref sig .tc, b ≠ main_v3 → Proc.devRef (τ := τ) .tc b ≠ Proc.devRef .tc main_v3 :=
    fun b h e => h (Proc.devRef_injective _ e)
  unfold exitVal
  fin_cases w
  · exact (dat.arrAt_in 0 rfl _).trans ((hA 0).trans (Function.update_of_ne (hne main_v0 (by decide)) (dat.arrAt 4 cfg0.N) Vc).symm)
  · exact (dat.arrAt_in 1 rfl _).trans ((hA 1).trans (Function.update_of_ne (hne main_v0 (by decide)) (dat.arrAt 4 cfg0.N) Vc).symm)
  · exact (dat.arrAt_in 2 rfl _).trans ((hA 2).trans (Function.update_of_ne (hne main_v1 (by decide)) (dat.arrAt 4 cfg0.N) Vc).symm)
  · exact (dat.arrAt_in 3 rfl _).trans ((hA 3).trans (Function.update_of_ne (hne main_v2 (by decide)) (dat.arrAt 4 cfg0.N) Vc).symm)
  · exact (Function.update_self (Proc.devRef (τ := τ) .tc main_v3) (dat.arrAt 4 cfg0.N) Vc).symm

/-- No buffer that bypasses the region is the output array, so the bypassing buffers hold the same at
    the entry contents and at the exit contents. -/
theorem rest_exit : (Pipeline.unscopedRestP Pipeline.Prefetch.none spec0 c (fun b => Vc (Proc.devRef .tc b)) : sProp 𝕄)
    = Pipeline.unscopedRestP Pipeline.Prefetch.none spec0 c (fun b => exitVal dat Vc (Proc.devRef .tc b)) := by
  unfold Pipeline.unscopedRestP
  refine bigSep_congr fun b hb => ?_
  have hb3 : Proc.devRef (τ := τ) .tc b ≠ Proc.devRef .tc main_v3 := by
    intro e
    obtain rfl : b = main_v3 := Proc.devRef_injective _ e
    exact (Finset.mem_sdiff.mp (Finset.mem_sdiff.mp hb).1).2 (Finset.mem_image.mpr ⟨(4 : Fin 5), Finset.mem_univ _, rfl⟩)
  have e : exitVal dat Vc (Proc.devRef .tc b) = Vc (Proc.devRef .tc b) := by
    unfold exitVal
    exact Function.update_of_ne hb3 (dat.arrAt 4 cfg0.N) Vc
  beta_reduce
  rw [e]

include hq0 hq1 hq2 hq3 hA in
/-- Leaving the region, the windows' arrays at their shares and the bypassing buffers are every
    unscoped buffer whole, at the exit contents: the two halves of the shared array are joined. -/
theorem held_exit :
    iprop(dat.arrays (dat.arrAt · cfg0.N) ∗ Pipeline.unscopedRestP Pipeline.Prefetch.none spec0 c (fun b => Vc (Proc.devRef .tc b)))
      ⊢ (StableHlo.held (c.tc : Thread nD τ) (Pipeline.ucRefs τ sig) (exitVal dat Vc) : sProp 𝕄) := by
  rw [rest_exit dat Vc, Pipeline.unscopedRestP_none,
    ← Pipeline.unscopedBufs_held (Ix := Unit) (Name := ℕ) (U := UR sig nD τ) (Lvl := ℕ) c (exitVal dat Vc),
    Pipeline.unscopedBufs_split₀ cfgs 0 winFacts₀0.arr_unscoped c]
  iintro ⟨HA, HZ⟩
  isplitl [HA]
  · iapply (arrBufs_iff_arrays dat hq0 hq1 hq2 hq3 (fun b => exitVal dat Vc (Proc.devRef .tc b)) (dat.arrAt · cfg0.N)
      (arrAt_exit dat Vc hA)).2
    iexact HA
  iexact HZ

include hq0 hq1 hq2 hq3 hA in
/-- After the host operations that follow the region — which write no array — every unscoped buffer
    whole is again the windows' arrays at their shares, unchanged, and the bypassing buffers at what
    the operations made of them. -/
theorem exit_after :
    (StableHlo.held (c.tc : Thread nD τ) (Pipeline.ucRefs τ sig) (StableHlo.after (hostOps1 (F := F)) (exitVal dat Vc)) : sProp 𝕄)
      ⊢ iprop(dat.arrays (dat.arrAt · cfg0.N)
          ∗ Pipeline.unscopedRestP Pipeline.Prefetch.none spec0 c (fun b => StableHlo.after (hostOps1 (F := F)) (exitVal dat Vc) (Proc.devRef .tc b))) := by
  rw [Pipeline.unscopedRestP_none,
    ← Pipeline.unscopedBufs_held (Ix := Unit) (Name := ℕ) (U := UR sig nD τ) (Lvl := ℕ) c (StableHlo.after (hostOps1 (F := F)) (exitVal dat Vc)),
    Pipeline.unscopedBufs_split₀ cfgs 0 winFacts₀0.arr_unscoped c]
  iintro ⟨HA, HZ⟩
  isplitl [HA]
  · iapply (arrBufs_iff_arrays dat hq0 hq1 hq2 hq3
      (fun b => StableHlo.after (hostOps1 (F := F)) (exitVal dat Vc) (Proc.devRef .tc b)) (dat.arrAt · cfg0.N)
      (fun w => (arrAt_exit dat Vc hA w).trans
        (StableHlo.after_of_forall_not_mem (hostOps1 (F := F)) (exitVal dat Vc) (hostOps1_keep w)).symm)).1
    iexact HA
  iexact HZ

include hq0 hq1 hq2 hq3 hA in
set_option backward.isDefEq.respectTransparency.types false in
/-- THE HOST OPERATIONS AFTER THE REGION run holding every unscoped buffer whole and hand back the
    windows' arrays at their shares, unchanged, with the bypassing buffers at the operations' results. -/
theorem tail_shared (𝒱₀ : Variants) (Q' : PUnit → sProp 𝕄) :
    iprop((iprop(dat.arrays (dat.arrAt · cfg0.N)
              ∗ Pipeline.unscopedRestP Pipeline.Prefetch.none spec0 c (fun b => StableHlo.after (hostOps1 (F := F)) (exitVal dat Vc) (Proc.devRef .tc b))) -∗ Q' ⟨⟩)
        ∗ boundary (c.tc : Thread nD τ) ∗ dat.arrays (dat.arrAt · cfg0.N)
        ∗ Pipeline.unscopedRestP Pipeline.Prefetch.none spec0 c (fun b => Vc (Proc.devRef .tc b)))
      ⊢ wp frame (wpE (Pipeline.defs (fun q => (cfgs q).toPCfg (Val := Elt F)) defs₀) (Variants.lift 𝒱₀) (c.tc : Thread nD τ) none) Set.univ
          (Pipeline.chain ([hostOps1 (F := F)].map StableHlo.seq)) Q' := by
  rw [← List.append_nil ([hostOps1 (F := F)].map StableHlo.seq)]
  iintro ⟨Hk, Hb, HAZ⟩
  ihave HH := (held_exit dat hq0 hq1 hq2 hq3 Vc hA) $$ HAZ
  iapply (Pipeline.wp_seqs_then (fun q => (cfgs q).toPCfg (Val := Elt F)) defs₀ 𝒱₀ c (Pipeline.ucRefs τ sig) [] [hostOps1 (F := F)]
    hostOps1_uc hostOps1_fresh (exitVal dat Vc)) $$ [Hb HH]
  · isplitl [Hb] <;> iassumption
  iintro Hb
  rw [Pipeline.chain_nil, wp_pure]
  imodintro
  iapply Hk
  icases Hb with ⟨-, H⟩
  rw [show StableHlo.after ([hostOps1 (F := F)]).flatten (exitVal dat Vc) = StableHlo.after (hostOps1 (F := F)) (exitVal dat Vc) from by
    rw [List.flatten_cons, List.flatten_nil, List.append_nil]]
  iapply (exit_after dat hq0 hq1 hq2 hq3 Vc hA)
  iexact H

end Tail2

/-! ## The run -/

section Run

variable (m : (ℓ : Loc nD τ sig) → Buf (Elt F) ℓ) (ρ : Dev nD → PrngReg)
variable (dats : (p : Fin 1) → (c : Dev nD) → Dat τ (Elt F) Unit ℕ (UR sig nD τ) ℕ (cfgs p) c)

set_option backward.isDefEq.respectTransparency.types false in
/-- THE RUN: @main — host operations, the region, host operations — terminates from any memory with zero counters;
    every window's array ends at what the proof data computes (`Dat.arrAt … N`), and every other unscoped buffer at
    what the host operations after the region make of the region's exit contents. -/
theorem run_shared (𝒱₀ : Variants)
    (hbody : ∀ c, BodyObligationLoose (dats 0 c) (defs₀ (F := F)) 𝒱₀ () Set.univ)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (howed : ∀ c t, (dats 0 c).owed t = 0)
    (V₀ : Dev nD → Valuation τ sig (Elt F))
    (hmain : Pipeline.HMainK (Ix := Unit) (Name := ℕ) (U := UR sig nD τ) (Lvl := ℕ) cfgs 0 defs₀ 𝒱₀ m (main (F := F))
      (fun c b => V₀ c (Proc.devRef .tc b)) (fun _ => Pipeline.chain [StableHlo.seq (hostOps1 (F := F))]))
    (hA : ∀ c w, (dats 0 c).A w = V₀ c (Proc.devRef .tc (Pipeline.arrRef spec0 w)))
    (hΦ : ∀ c t, (dats 0 c).Φ t = Pipeline.ΦA spec0 c) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ Pipeline.restRefsP sig Pipeline.Prefetch.none spec0, r.2.mem ((c.tc : Thread nD τ).loc b)
          = StableHlo.after (hostOps1 (F := F)) (exitVal (dats 0 c) (V₀ c)) (Proc.devRef .tc b)) := by
  classical
  have hinj : Function.Injective (cellOf (nD := nD) (τ := τ)
      (Pipeline.pin (fun q => (cfgs q).toPCfg (Val := Elt F)) (fun q => (cfgs q).toPCfg_adm))) := cellOf_inj
  exact Pipeline.θ_run_region_pf_tail (fun q => (cfgs q).toPCfg (Val := Elt F)) (fun q => (cfgs q).toPCfg_adm) dats () hinj
    (0 : Fin 1) winFacts₀0 (Pipeline.OwnSemFacts.none spec0) (Pipeline.PreFacts.none _) emb₁ defs₀ 𝒱₀ m ρ main
    (fun _ => Pipeline.chain [StableHlo.seq (hostOps1 (F := F))]) hbody block_pos0 arr_whole0 stage_whole0 howed
    (G := fun _ => iprop(emp))
    (u₀ := initOf (Pipeline.cells (Pipeline.pin (fun q => (cfgs q).toPCfg (Val := Elt F)) (fun q => (cfgs q).toPCfg_adm)) hinj)
      (Pipeline.launchToks (Pipeline.pin (fun q => (cfgs q).toPCfg (Val := Elt F)) (fun q => (cfgs q).toPCfg_adm)) hinj))
    (hu₀ := by
      iintro Hu; imodintro
      isplitl [Hu]
      · iapply (show (ownU _ : sProp 𝕄) ⊢ BI.own (emb₁ (initOf (Pipeline.cells (Pipeline.pin (fun q => (cfgs q).toPCfg (Val := Elt F)) (fun q => (cfgs q).toPCfg_adm)) hinj)
          (Pipeline.launchToks (Pipeline.pin (fun q => (cfgs q).toPCfg (Val := Elt F)) (fun q => (cfgs q).toPCfg_adm)) hinj))) from .rfl)
        iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := fun c => (arrBufs_iff_arrays (dats 0 c) (hq0 c) (hq1 c) (hq2 c) (hq3 c) _ _ (fun w => hA c w)).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (fun b => V₀ c (Proc.devRef .tc b)))
    (Z' := fun c => Pipeline.unscopedRestP (Ix := Unit) (Name := ℕ) (U := UR sig nD τ) (Lvl := ℕ) Pipeline.Prefetch.none spec0 c
      (fun b => StableHlo.after (hostOps1 (F := F)) (exitVal (dats 0 c) (V₀ c)) (Proc.devRef .tc b)))
    (hX := fun c => by
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr] <;> iassumption)
    (hout := fun c => by
      rw [hΦ, Pipeline.ownSems0_none]; unfold Pipeline.ΦA
      iintro ⟨Hr, Hp⟩
      isplitl [Hp]; · iexact Hp
      isplitr; · iempintro
      iexact Hr)
    (htail := fun c Q' => tail_shared (dats 0 c) (hq0 c) (hq1 c) (hq2 c) (hq3 c) (V₀ c) (hA c) 𝒱₀ Q')
    (QY := fun c s => ∀ b ∈ Pipeline.restRefsP sig Pipeline.Prefetch.none spec0, s.mem ((c.tc : Thread nD τ).loc b)
        = StableHlo.after (hostOps1 (F := F)) (exitVal (dats 0 c) (V₀ c)) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => StableHlo.after (hostOps1 (F := F)) (exitVal (dats 0 c) (V₀ c)) (Proc.devRef .tc b)) s')
      isplitl [HU] <;> iassumption)
    (hQ := fun s h c => ⟨(h c).1, (h c).2.2⟩)

end Run

end Cert.Kernel.Shared

end
-- ==== Proof.RunMainBits.lean ====
import proofs.«181027_j66391604461719_1_alg».proof.Proof.BodyBits
import proofs.«181027_j66391604461719_1_alg».proof.Proof.HostValuesBits
import proofs.«181027_j66391604461719_1_alg».proof.Proof.LaunchSharedBits

/-!
# The run of the whole program

The body's obligation at every grid point, handed to the launch of a pipeline whose two embedding windows read one
array, gives a run of the whole program: it terminates, the array of per-block partial sums ends at what the proof
data computes from the write-backs, and every buffer that bypasses the region ends at what the closing host lines
make of the region's exit contents.

Read at the three buffers that matter, this says: the two argument arrays end as they were launched (no line writes
them), and the result is the sum of the array of partial sums divided by the number of strictly-upper pairs.
-/

noncomputable section

namespace Cert.Kernel.Run

open Cert.Kernel Cert.Kernel.Gen
open Idealize.ShloMosaic Idealize.ShloMosaic.TcCoe
open Idealize.SL Idealize.SL.Sem
open Idealize.ShloMosaic.Pipeline (Dat BodyObligation BodyObligationLoose)

variable {F : FTy → Type} [FloatOps F]

variable (m : (ℓ : Loc nD τ sig) → Buf (Elt F) ℓ) (ρ : Dev nD → PrngReg)

/-! ## The run -/

/-- From any memory with zero counters the program terminates; each window's array ends at what the proof data
    computes, and each bypassing buffer at what the closing lines make of the exit contents. -/
theorem run_main : θ_run defs (onTc (τ := τ) (main (F := F))) (s₀ m ρ) (fun r => ∀ c : Dev nD,
      (∀ w, r.2.mem ((spec0 w).arr.view.loc (c.tc : Thread nD τ)) = (Body.dats m 0 c).arrAt w cfg0.N)
      ∧ ∀ b ∈ Pipeline.restRefsP sig Pipeline.Prefetch.none spec0, r.2.mem ((c.tc : Thread nD τ).loc b)
          = StableHlo.after (hostOps1 (F := F)) (Shared.exitVal (Body.dats m 0 c) (Body.V0 m c)) (Proc.devRef .tc b)) :=
  Shared.run_shared m ρ (Body.dats m) Variants.none (fun c => (Body.body_obligation m c).loose)
    (fun _ => rfl) (fun _ => rfl) (fun _ => rfl) (fun _ => rfl) (fun _ _ => rfl)
    (Body.V0 m) (Body.hmain m Variants.none) (Body.A_eq m) (fun _ _ => rfl)

/-! ## The buffers that bypass the region -/

/-- An unscoped buffer that is no window's array bypasses the region. -/
theorem mem_rest (b : Ref sig .tc) (hs : b.isScoped = false) (ha : ∀ w, (spec0 w).arr.view.ref ≠ b) :
    b ∈ Pipeline.restRefsP sig Pipeline.Prefetch.none spec0 :=
  Finset.mem_sdiff.mpr ⟨Pipeline.mem_restRefs_of b hs ha, fun h => (Finset.mem_image.mp h).elim fun k _ => k.elim0⟩

theorem main_arg0_rest : main_arg0 ∈ Pipeline.restRefsP sig Pipeline.Prefetch.none spec0 := mem_rest main_arg0 rfl (by decide)
theorem main_arg1_rest : main_arg1 ∈ Pipeline.restRefsP sig Pipeline.Prefetch.none spec0 := mem_rest main_arg1 rfl (by decide)
theorem main_v5_rest : main_v5 ∈ Pipeline.restRefsP sig Pipeline.Prefetch.none spec0 := mem_rest main_v5 rfl (by decide)

/-! ## The exit contents -/

section Exit

variable {c : Dev nD} (dat : Dat τ (Elt F) Unit ℕ (UR sig nD τ) ℕ cfg0 c) (Vc : Valuation τ sig (Elt F))

/-- Away from the array of partial sums the region's exit contents are its entry contents. -/
theorem exitVal_of_ne (b : Ref sig .tc) (h : b ≠ main_v3) : Shared.exitVal dat Vc (Proc.devRef .tc b) = Vc (Proc.devRef .tc b) := by
  unfold Shared.exitVal
  exact Function.update_of_ne (StableHlo.devRef_ne_of_ne h) _ _

/-- At the array of partial sums they are what the write-backs made of it. -/
theorem exitVal_main_v3 : Shared.exitVal dat Vc (Proc.devRef .tc main_v3) = dat.arrAt 4 cfg0.N := by
  unfold Shared.exitVal
  exact Function.update_self _ _ _

end Exit

/-- The first argument array after the closing lines: its launch contents. -/
theorem end_main_arg0 (c : Dev nD) :
    StableHlo.after (hostOps1 (F := F)) (Shared.exitVal (Body.dats m 0 c) (Body.V0 m c)) (Proc.devRef .tc main_arg0)
      = m ((c.tc : Thread nD τ).loc main_arg0) := by
  rw [HostValues.after_hostOps1_main_arg0, exitVal_of_ne _ _ main_arg0 (by decide)]
  exact HostValues.V_main_arg0 m c

/-- The second argument array after the closing lines: its launch contents. -/
theorem end_main_arg1 (c : Dev nD) :
    StableHlo.after (hostOps1 (F := F)) (Shared.exitVal (Body.dats m 0 c) (Body.V0 m c)) (Proc.devRef .tc main_arg1)
      = m ((c.tc : Thread nD τ).loc main_arg1) := by
  rw [HostValues.after_hostOps1_main_arg1, exitVal_of_ne _ _ main_arg1 (by decide)]
  exact HostValues.V_main_arg1 m c

/-- The result after the closing lines: the sum of the array of partial sums, as the write-backs left it, over the pair count. -/
theorem end_main_v5 (c : Dev nD) :
    StableHlo.after (hostOps1 (F := F)) (Shared.exitVal (Body.dats m 0 c) (Body.V0 m c)) (Proc.devRef .tc main_v5)
      = (Host.divf
          (Host.reduceAdd ((Body.dats m 0 c).arrAt 4 cfg0.N : (⟨S8x8x8x128, .f32⟩ : BufTy).Contents (Elt F))
            (constant S_ .f32 0x00000000#32 : (⟨S_, .f32⟩ : BufTy).Contents (Elt F)) reducesTo_S8x8x8x128_S_d0_1_2_3 h_S_)
          (constant S_ .f32 0x4AFFF000#32 : (⟨S_, .f32⟩ : BufTy).Contents (Elt F)) : (⟨S_, .f32⟩ : BufTy).Contents (Elt F)) := by
  rw [HostValues.after_hostOps1_main_v5, exitVal_main_v3]

/-! ## The frame and the value -/

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 main_arg0_rest).trans (end_main_arg0 m c),
      ((h c).2 main_arg1 main_arg1_rest).trans (end_main_arg1 m c)⟩) (run_main m ρ)

/-- The program runs; its result is the sum of the array of partial sums over the pair count, and its argument
    arrays end unchanged. -/
theorem run_value : θ_run defs (onTc (τ := τ) (main (F := F))) ⟨m, fun _ => 0, ρ⟩ (fun r => ∀ c : Dev nD,
      r.2.mem ((c.tc : Thread nD τ).loc main_v5)
        = (Host.divf
            (Host.reduceAdd ((Body.dats m 0 c).arrAt 4 cfg0.N : (⟨S8x8x8x128, .f32⟩ : BufTy).Contents (Elt F))
              (constant S_ .f32 0x00000000#32 : (⟨S_, .f32⟩ : BufTy).Contents (Elt F)) reducesTo_S8x8x8x128_S_d0_1_2_3 h_S_)
            (constant S_ .f32 0x4AFFF000#32 : (⟨S_, .f32⟩ : BufTy).Contents (Elt F)) : (⟨S_, .f32⟩ : BufTy).Contents (Elt F))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v5 main_v5_rest).trans (end_main_v5 m c),
      ((h c).2 main_arg0 main_arg0_rest).trans (end_main_arg0 m c),
      ((h c).2 main_arg1 main_arg1_rest).trans (end_main_arg1 m c)⟩) (run_main m ρ)

end Cert.Kernel.Run

end
-- ==== Proof.Spec.lean ====
/-
  The specification of the pair loss: ONE function of the embedding array and the label array, at the ideal
  (extended-real) reading of the floats, written index by index over the literal shapes.

  For embeddings x : [4096, 768] and labels lab : [4096],
    sqNorm x i   = Σ_k x(i,k) · x(i,k)                       the squared norm of row i
    gram x i j   = Σ_k x(i,k) · x(j,k)                       the inner product of rows i and j
    dist2        = max (sqNorm i + sqNorm j − 2 · gram i j) 0     the squared distance, clamped at 0
    hingeSq      = (max (1 − √(dist2 + ε)) 0)²               the squared hinge of the distance
    entry        = dist2 when the labels agree, hingeSq otherwise — and 0 off the strict upper triangle i < j
    total        = Σ_i Σ_j entry                             over all 4096 × 4096 pairs
    loss         = total / 8386560                           (8386560 = 4096 · 4095 / 2, the number of pairs i < j)
  The float constants 2, 0, ε, 1 and 8386560 are kept as the extended reals their f32 words denote; nothing here
  evaluates them. No finiteness of the inputs is assumed: every operation is total on the extended reals.
-/
import Idealize.ShloMosaic.PureOps.Ideal
import Idealize.ShloMosaic.PureOps.Ideal.Laws
import Idealize.ShloMosaic.Lib.ValueIdx

noncomputable section

open scoped BigOperators

namespace Cert.PairLoss

open Idealize.ShloMosaic Idealize.ShloMosaic.ValueIdx

/-- The shape of the embedding array: 4096 rows of 768 features. -/
abbrev SEmb : Shape := ⟨2, ![4096, 768]⟩
/-- The shape of the label array: one label per row. -/
abbrev SLab : Shape := ⟨1, ![4096]⟩

/-- The squared norm of row `i`: Σ_k x(i,k)². -/
def sqNorm (x : SEmb.Idx → EReal) (i : Fin 4096) : EReal :=
  ∑ k : Fin 768, x (ix2 i k) * x (ix2 i k)

/-- The inner product of rows `i` and `j`: Σ_k x(i,k) · x(j,k). -/
def gram (x : SEmb.Idx → EReal) (i j : Fin 4096) : EReal :=
  ∑ k : Fin 768, x (ix2 i k) * x (ix2 j k)

/-- The squared distance of two rows from their squared norms `p`, `q` and inner product `g`, clamped at zero:
    max (p + q − 2 · g) 0. -/
def dist2 (p q g : EReal) : EReal :=
  max (p + q - Ideal.ofBits .f32 0x40000000#32 * g) (Ideal.ofBits .f32 0x00000000#32)

/-- The squared hinge of a squared distance `d`: (max (1 − √(d + ε)) 0)². -/
def hingeSq (d : EReal) : EReal :=
  max (Ideal.ofBits .f32 0x3F800000#32 - Ideal.sqrt (d + Ideal.ofBits .f32 0x2B8CBCCC#32)) (Ideal.ofBits .f32 0x00000000#32)
    * max (Ideal.ofBits .f32 0x3F800000#32 - Ideal.sqrt (d + Ideal.ofBits .f32 0x2B8CBCCC#32)) (Ideal.ofBits .f32 0x00000000#32)

/-- The value of one pair from the rows' squared norms `p`, `q`, their inner product `g`, whether the labels agree
    (`same`) and whether the pair is in the strict upper triangle (`lt`): off the triangle zero; on it the squared
    distance for equal labels and the squared hinge for different ones. -/
def entry (p q g : EReal) (same lt : Bool) : EReal :=
  if lt then (if same then dist2 p q g else hingeSq (dist2 p q g)) else Ideal.ofBits .f32 0x00000000#32

/-- The pair `(i, j)`'s value. -/
def masked (x : SEmb.Idx → EReal) (lab : SLab.Idx → BitVec 32) (i j : Fin 4096) : EReal :=
  entry (sqNorm x i) (sqNorm x j) (gram x i j) (decide (lab (ix1 i) = lab (ix1 j))) (decide (i < j))

/-- The sum over all pairs. -/
def total (x : SEmb.Idx → EReal) (lab : SLab.Idx → BitVec 32) : EReal :=
  ∑ i : Fin 4096, ∑ j : Fin 4096, masked x lab i j

/-- The loss: the total divided by the number of pairs in the strict upper triangle. -/
def loss (x : SEmb.Idx → EReal) (lab : SLab.Idx → BitVec 32) : EReal :=
  Ideal.div (total x lab) (Ideal.ofBits .f32 0x4AFFF000#32)

/-! ## The two decisions, from the words a program computes them with -/

/-- A select on "the two words are equal" is the `if` on their equality. -/
theorem select_cmpi_eq {α : Type} (a b : BitVec 32) (u v : α) :
    Scalar.select (IntOp.cmpi .eq a b) u v = if a = b then u else v := by
  unfold Scalar.select IntOp.cmpi
  by_cases h : a = b
  · simp [h]
  · have hb : (a == b) = false := beq_eq_false_iff_ne.mpr h
    simp [h, hb]

/-- A select on a signed "less than" of two words is the `if` on the order of the integers they denote. -/
theorem select_cmpi_slt {α : Type} (a b : BitVec 32) (u v : α) :
    Scalar.select (IntOp.cmpi .slt a b) u v = if a.toInt < b.toInt then u else v := by
  unfold Scalar.select IntOp.cmpi
  by_cases h : a.toInt < b.toInt
  · simp [BitVec.slt, h]
  · simp [BitVec.slt, h]

/-- A natural number below 2³¹, as a 32-bit word, denotes itself as a signed integer. -/
theorem toInt_ofNat_small (n : Nat) (h : n < 2147483648) : (BitVec.ofNat 32 n).toInt = (n : Int) := by
  rw [BitVec.toInt_eq_toNat_of_lt (by simp only [BitVec.toNat_ofNat]; omega), BitVec.toNat_ofNat]
  omega

/-- The pair's value with the two decisions as propositions. -/
theorem entry_decide (p q g : EReal) (P Q : Prop) [Decidable P] [Decidable Q] :
    entry p q g (decide P) (decide Q) =
      if Q then (if P then dist2 p q g else hingeSq (dist2 p q g)) else Ideal.ofBits .f32 0x00000000#32 := by
  unfold entry
  simp only [decide_eq_true_eq]

/-- Off the strict upper triangle a pair's value is zero. -/
theorem masked_of_not_lt (x : SEmb.Idx → EReal) (lab : SLab.Idx → BitVec 32) (i j : Fin 4096) (h : ¬ i < j) :
    masked x lab i j = 0 := by
  unfold masked
  rw [entry_decide, if_neg h, Ideal.ofBits_zero_f32]

end Cert.PairLoss

end
-- ==== Proof.LibSumAlgebra.lean ====
/-
  Sum algebra on the extended reals (and on any additive commutative monoid) used to join a
  tiled sum to a whole-matrix sum.

  Two facts, neither of which needs any finiteness:

  * n equal summands t * c with n * c = 1 add up to t, for EVERY extended real t (also the two
    infinities): a sum of n equal terms is n • (t * c) = (n : EReal) * (t * c), and
    multiplication on the extended reals is commutative and associative, so this is
    t * (n * c) = t * 1.  No distributivity is used.

  * a sum over an index range of length m * n is the sum over its m consecutive blocks of
    length n of the sums over each block; twice, for a matrix cut into square tiles.  This holds
    in any additive commutative monoid, because a finite sum may be reindexed along a bijection
    and the order of two finite sums may be exchanged.
-/
import Idealize.ShloMosaic.PureOps.Ideal

noncomputable section

namespace Cert.LibSumAlgebra

open scoped BigOperators

/-! ## Equal summands whose scale undoes their number -/

/-- Over a finite index type ι, the constant summand t * c adds up to t as soon as
    (card ι) * c = 1 in the extended reals.  True for every t, the infinities included:
    only commutativity and associativity of the product are used. -/
theorem sum_const_mul_eq {ι : Type*} [Fintype ι] (t c : EReal)
    (h : ((Fintype.card ι : ℕ) : EReal) * c = 1) :
    ∑ _i : ι, t * c = t := by
  rw [Finset.sum_const, Finset.card_univ, EReal.nsmul_eq_mul, mul_left_comm, h, mul_one]

/-- The same over two nested finite sums: card ι * card κ equal summands. -/
theorem sum_sum_const_mul_eq {ι κ : Type*} [Fintype ι] [Fintype κ] (t c : EReal)
    (h : (((Fintype.card ι * Fintype.card κ : ℕ)) : EReal) * c = 1) :
    ∑ _i : ι, ∑ _j : κ, t * c = t := by
  rw [← Finset.sum_product', Finset.univ_product_univ]
  exact sum_const_mul_eq (ι := ι × κ) t c (by rw [Fintype.card_prod]; exact h)

/-- 1024 * 2^(-10) = 1 in the extended reals. -/
theorem nat1024_mul_two_pow_neg_ten :
    ((1024 : ℕ) : EReal) * (((2 : ℝ) ^ (-10 : Int) : ℝ) : EReal) = 1 := by
  have h : ((1024 : ℕ) : EReal) = ((1024 : ℝ) : EReal) := by norm_cast
  rw [h, ← EReal.coe_mul]
  norm_num

/-- 1024 copies of t * 2^(-10), indexed by Fin 1024, add up to t. -/
theorem sum_fin1024_mul_two_pow_neg_ten (t : EReal) :
    ∑ _i : Fin 1024, t * (((2 : ℝ) ^ (-10 : Int) : ℝ) : EReal) = t :=
  sum_const_mul_eq t _ (by rw [Fintype.card_fin]; exact nat1024_mul_two_pow_neg_ten)

/-- 8 × 128 copies of t * 2^(-10), as two nested sums, add up to t. -/
theorem sum_fin8_fin128_mul_two_pow_neg_ten (t : EReal) :
    ∑ _p : Fin 8, ∑ _q : Fin 128, t * (((2 : ℝ) ^ (-10 : Int) : ℝ) : EReal) = t :=
  sum_sum_const_mul_eq t _ (by
    rw [Fintype.card_fin, Fintype.card_fin]; exact nat1024_mul_two_pow_neg_ten)

/-! ## A sum over a range as the sum over its consecutive blocks -/

/-- Position r of block b, of m blocks of length n, lies in the range of length m * n. -/
theorem block_lt {m n : ℕ} (b : Fin m) (r : Fin n) : b.val * n + r.val < m * n := by
  have h1 : b.val * n + r.val < (b.val + 1) * n := by
    rw [Nat.add_mul, Nat.one_mul]; exact Nat.add_lt_add_left r.isLt _
  exact lt_of_lt_of_le h1 (Nat.mul_le_mul_right n b.isLt)

variable {M : Type*} [AddCommMonoid M]

/-- A sum over Fin (m * n) is the sum over the m blocks of the sum over each block's n
    positions: position r of block b is the index b * n + r. -/
theorem sum_blocks (m n : ℕ) (g : Fin (m * n) → M) :
    ∑ b : Fin m, ∑ r : Fin n, g ⟨b.val * n + r.val, block_lt b r⟩ = ∑ i : Fin (m * n), g i := by
  rw [← Finset.sum_product', Finset.univ_product_univ]
  refine Fintype.sum_equiv finProdFinEquiv _ _ (fun x => ?_)
  refine congrArg g (Fin.ext ?_)
  show x.1.val * n + x.2.val = x.2.val + n * x.1.val
  rw [Nat.mul_comm, Nat.add_comm]

/-- The same for the literal sizes of a range of 4096 cut into 8 blocks of 512. -/
theorem sum_blocks_8_512 (g : Fin 4096 → M) :
    ∑ b : Fin 8, ∑ r : Fin 512, g ⟨b.val * 512 + r.val, block_lt (m := 8) (n := 512) b r⟩
      = ∑ i : Fin 4096, g i :=
  sum_blocks 8 512 g

/-- A 4096 × 4096 matrix summed tile by tile over its 8 × 8 grid of 512 × 512 tiles is the
    sum of all its entries: entry (r, c) of tile (bi, bj) is entry
    (bi * 512 + r, bj * 512 + c) of the matrix. -/
theorem sum_tiles_8_512 (f : Fin 4096 → Fin 4096 → M) :
    ∑ bi : Fin 8, ∑ bj : Fin 8, ∑ r : Fin 512, ∑ c : Fin 512,
        f ⟨bi.val * 512 + r.val, block_lt (m := 8) (n := 512) bi r⟩
          ⟨bj.val * 512 + c.val, block_lt (m := 8) (n := 512) bj c⟩
      = ∑ i : Fin 4096, ∑ j : Fin 4096, f i j := by
  rw [← sum_blocks_8_512 (fun i => ∑ j : Fin 4096, f i j)]
  refine Finset.sum_congr rfl fun bi _ => ?_
  rw [Finset.sum_comm]
  refine Finset.sum_congr rfl fun r _ => ?_
  exact sum_blocks_8_512 (fun j => f ⟨bi.val * 512 + r.val, block_lt (m := 8) (n := 512) bi r⟩ j)

end Cert.LibSumAlgebra

end
-- ==== Proof.Payload.lean ====
/-
  The kernel body's stored block, read at an index, at the ideal (extended-real) reading of the floats.

  At grid point (bi, bj) the body holds two 512 × 768 blocks x0, x1 of embeddings (bf16 to f32 is the identity
  here), a 512 × 1 column l2 and a 1 × 512 row l3 of labels, and computes on the 512 × 512 tile, entry (r, c):
    sq0 r  = Σ_k x0(r,k)²   (a lane sum, kept as a column and broadcast along the rows)
    sq1 c  = Σ_k x1(c,k)²   (a lane sum, kept as a column, transposed to a row and broadcast along the columns)
    g r c  = Σ_k x0(r,k) · x1(c,k)   (the matmul of x0 with x1 transposed, into a zero accumulator)
    d2     = max (sq0 r + sq1 c − 2 · g r c) 0,   hh = (max (1 − √(d2 + ε)) 0)²
    the pair value: d2 where l2(r) = l3(c), hh elsewhere; and zero unless the row position bi · 512 + r is below the
    column position bj · 512 + c (compared as signed 32-bit words; below 4096 nothing wraps).
  It then sums the tile (each row along its lanes, then the column of row sums), multiplies by the scale word, and
  broadcasts that one number to all 8 × 128 cells of its output block.

  Each non-pointwise operation is read at an index by one small lemma (a cast that keeps a column as [a, 1], the
  broadcasts of a column and of a row, the transposes, the lane sums, the matmul through its contraction index);
  the pointwise operations compute.  The result is stated through the specification's pair value.
-/
import proofs.«181027_j66391604461719_1_alg».proof.Proof.Gen.KernelIdeal.Skeleton
import proofs.«181027_j66391604461719_1_alg».proof.Proof.Spec
import proofs.«181027_j66391604461719_1_alg».proof.Proof.LibSumAlgebra
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx
open Cert.KernelIdeal

/-! ## Layout operations of a column kept as a [a, 1] array -/

section Layout
variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The lane sums and the matmul of the body, read at an index -/

/-- A sum along the rows of a 512 × 768 array: entry r of the result is the sum of row r. -/
theorem rowSum768 (x : FVec Ideal S512x768 .f32) (h : S512x768.Reduces [1] S512) (hφ : FKind.Formats .f32)
    (hacc : (0x00000000#32 : BitVec 32) = 0x00000000#32) (r : Fin 512) :
    multiReduction (F := Ideal) .add [1] S512 x 0x00000000#32 h hφ hacc (ix1 r) = ∑ k : Fin 768, x (ix2 r k) := by
  refine (Ideal.multiReduction_add_single x 0x00000000#32 h hφ hacc (ix1 r)).trans ?_
  show ∑ k : Fin 768, x (h.lift (ix1 r) k) = _
  refine Finset.sum_congr rfl fun k _ => congrArg x (funext fun a => Fin.ext ?_)
  match a with
  | ⟨0, _⟩ => rfl
  | ⟨1, _⟩ => rfl

/-- The squared norms of a block's rows, kept as a column. -/
theorem sqCol_apply (x : FVec Ideal S512x768 .bf16) (hb : FTy.bits .bf16 < FTy.bits .f32)
    (h : S512x768.Reduces [1] S512) (hφ : FKind.Formats .f32)
    (hacc : (0x00000000#32 : BitVec 32) = 0x00000000#32) (hc : S512.ShapeCasts S512x1)
    (r : Fin 512) (u : Fin 1) :
    shapeCast S512x1 (multiReduction (F := Ideal) .add [1] S512 (mulf (extf .f32 x hb) (extf .f32 x hb)) 0x00000000#32 h hφ hacc) hc (ix2 r u)
      = ∑ k : Fin 768, x (ix2 r k) * x (ix2 r k) :=
  (shapeCast_a_a1_apply _ hc r u).trans (rowSum768 _ h hφ hacc r)

/-! The operand indices of the body's dot (contract the left operand's axis 1 with the right operand's axis 0; no
    batch axis), coordinate by coordinate. -/

theorem dot_lhs_0 (i : S512x512.Idx) (q : dot_S512x768_S768x512_S512x512_1_0_0_1_n_n.contr.Idx) :
    (dot_S512x768_S768x512_S512x512_1_0_0_1_n_n.lhsIdx i q 0).val = (i 0).val := by
  unfold DotDims.lhsIdx
  rw [dif_neg (show ¬(0 : Fin S512x768.rank) ∈ dot_S512x768_S768x512_S512x512_1_0_0_1_n_n.lhsBatch by decide),
    dif_pos (show (0 : Fin S512x768.rank) ∈ dot_S512x768_S768x512_S512x512_1_0_0_1_n_n.lhsNonContracting by decide)]
  rfl
theorem dot_lhs_1 (i : S512x512.Idx) (q : dot_S512x768_S768x512_S512x512_1_0_0_1_n_n.contr.Idx) :
    (dot_S512x768_S768x512_S512x512_1_0_0_1_n_n.lhsIdx i q 1).val = (q ⟨0, by decide⟩).val :=
  dot_S512x768_S768x512_S512x512_1_0_0_1_n_n.lhsIdx_val_of_single rfl i q
theorem dot_rhs_0 (i : S512x512.Idx) (q : dot_S512x768_S768x512_S512x512_1_0_0_1_n_n.contr.Idx) :
    (dot_S512x768_S768x512_S512x512_1_0_0_1_n_n.rhsIdx i q 0).val = (q ⟨0, by decide⟩).val :=
  dot_S512x768_S768x512_S512x512_1_0_0_1_n_n.rhsIdx_val_of_single rfl i q
theorem dot_rhs_1 (i : S512x512.Idx) (q : dot_S512x768_S768x512_S512x512_1_0_0_1_n_n.contr.Idx) :
    (dot_S512x768_S768x512_S512x512_1_0_0_1_n_n.rhsIdx i q 1).val = (i 1).val := by
  unfold DotDims.rhsIdx
  rw [dif_neg (show ¬(1 : Fin S768x512.rank) ∈ dot_S512x768_S768x512_S512x512_1_0_0_1_n_n.rhsBatch by decide),
    dif_pos (show (1 : Fin S768x512.rank) ∈ dot_S512x768_S768x512_S512x512_1_0_0_1_n_n.rhsNonContracting by decide)]
  rfl

/-- The left operand's index of the body's dot at output (r, c) and contraction position k: (r, k). -/
theorem dot_lhsIdx (r c : Fin 512) (k : Fin 768) :
    dot_S512x768_S768x512_S512x512_1_0_0_1_n_n.lhsIdx (ix2 r c)
        ((ValueIdx.contrEquiv1 dot_S512x768_S768x512_S512x512_1_0_0_1_n_n 768 rfl rfl).symm k) = ix2 r k := by
  have hk := ValueIdx.contrEquiv1_symm_val dot_S512x768_S768x512_S512x512_1_0_0_1_n_n 768 rfl rfl k
  refine funext fun a => Fin.ext ?_
  match a with
  | ⟨0, _⟩ => exact dot_lhs_0 _ _
  | ⟨1, _⟩ => exact (dot_lhs_1 _ _).trans hk

/-- The right operand's index of the body's dot at output (r, c) and contraction position k: (k, c). -/
theorem dot_rhsIdx (r c : Fin 512) (k : Fin 768) :
    dot_S512x768_S768x512_S512x512_1_0_0_1_n_n.rhsIdx (ix2 r c)
        ((ValueIdx.contrEquiv1 dot_S512x768_S768x512_S512x512_1_0_0_1_n_n 768 rfl rfl).symm k) = ix2 k c := by
  have hk := ValueIdx.contrEquiv1_symm_val dot_S512x768_S768x512_S512x512_1_0_0_1_n_n 768 rfl rfl k
  refine funext fun a => Fin.ext ?_
  match a with
  | ⟨0, _⟩ => exact (dot_rhs_0 _ _).trans hk
  | ⟨1, _⟩ => exact dot_rhs_1 _ _

/-- The matmul of a block with another block transposed, into a zero accumulator: entry (r, c) is the inner
    product of row r of the first with row c of the second. -/
theorem gram_apply (x0 x1 : FVec Ideal S512x768 .bf16) (ht : S512x768.Transposes [1, 0] S768x512) (r c : Fin 512) :
    matmul (F := Ideal) dot_S512x768_S768x512_S512x512_1_0_0_1_n_n none x0 (transpose S768x512 [1, 0] x1 ht)
        (constant S512x512 .f32 0x00000000#32) (ix2 r c)
      = ∑ k : Fin 768, x0 (ix2 r k) * x1 (ix2 c k) := by
  simp only [matmul]
  rw [Ideal.matmul_constant_zero_apply, ← Equiv.sum_comp (ValueIdx.contrEquiv1 dot_S512x768_S768x512_S512x512_1_0_0_1_n_n 768 rfl rfl).symm]
  refine Finset.sum_congr rfl fun k _ => ?_
  rw [dot_lhsIdx, dot_rhsIdx, transpose_ix2_apply]

/-! ## The body's named values at an index -/

/-- The clamped squared distances of the body: entry (r, c) from the squared norms of row r of the first block and
    row c of the second and their inner product. -/
theorem pay2_apply (x0 x1 : FVec Ideal S512x768 .bf16) (r c : Fin 512) :
    Gen.k0_pay2 (F := Ideal) x0 x1 (ix2 r c)
      = PairLoss.dist2 (∑ k : Fin 768, x0 (ix2 r k) * x0 (ix2 r k)) (∑ k : Fin 768, x1 (ix2 c k) * x1 (ix2 c k))
          (∑ k : Fin 768, x0 (ix2 r k) * x1 (ix2 c k)) := by
  unfold Gen.k0_pay2
  dsimp only
  simp only [shapeCast_self, maximumf_apply, subf_apply, addf_apply, mulf_apply, broadcast_apply]
  rw [broadcastTo_a1_ab_apply, broadcastTo_1b_ab_apply, transpose_ix2_apply, sqCol_apply, sqCol_apply, gram_apply]
  rfl

/-- The label agreement of the body: entry (r, c) compares the label of row r of the column block with the
    label of column c of the row block. -/
theorem pay3_apply (l2 : IVec S512x1 32) (l3 : IVec S1x512 32) (r c : Fin 512) :
    Gen.k0_pay3 (F := Ideal) l2 l3 (ix2 r c) = IntOp.cmpi .eq (l2 (ix2 r (0 : Fin 1))) (l3 (ix2 (0 : Fin 1) c)) := by
  unfold Gen.k0_pay3
  simp only [shapeCast_self]
  show IntOp.cmpi .eq (broadcastTo S512x512 l2 _ (ix2 r c)) (broadcastTo S512x512 l3 _ (ix2 r c)) = _
  rw [broadcastTo_a1_ab_apply, broadcastTo_1b_ab_apply]

/-- The squared hinge of the body: entry (r, c) is the squared hinge of the clamped squared distance there. -/
theorem pay4_apply (x0 x1 : FVec Ideal S512x768 .bf16) (j : S512x512.Idx) :
    Gen.k0_pay4 (F := Ideal) x0 x1 j = PairLoss.hingeSq (Gen.k0_pay2 (F := Ideal) x0 x1 j) := by
  unfold Gen.k0_pay4 PairLoss.hingeSq
  rfl

/-! ## The block sum and its scaling, read at an index -/

section OneElement
variable {α : Type}

/-- A cast between two shapes of ONE element reads that element. -/
theorem shapeCast_one_apply {s t : Shape} (x : s.Idx → α) (h : s.ShapeCasts t) (hs : s.numel = 1) (j : t.Idx) (k : s.Idx) :
    shapeCast t x h j = x k :=
  shapeCast_apply x h j k (by
    have h1 := (s.rowMajor k).isLt
    have h2 := (t.rowMajor j).isLt
    have h3 : t.numel = s.numel := h
    omega)

/-- A [1, 1, 1, 1] array broadcast to [1, 1, 8, 128] reads its one element everywhere. -/
theorem broadcastTo_one_apply (v : S1x1x1x1.Idx → α) (h : S1x1x1x1.Broadcasts S1x1x8x128) (j : S1x1x8x128.Idx)
    (k : S1x1x1x1.Idx) : broadcastTo S1x1x8x128 v h j = v k :=
  broadcastTo_apply v h j k fun a => by
    have hs : S1x1x1x1.size a = 1 := by
      match a with
      | ⟨0, _⟩ => rfl
      | ⟨1, _⟩ => rfl
      | ⟨2, _⟩ => rfl
      | ⟨3, _⟩ => rfl
    rw [if_pos hs]
    have := (k a).isLt
    omega

end OneElement

/-- A sum along the rows of a 512 × 512 array: entry r of the result is the sum of row r. -/
theorem rowSum512 (x : FVec Ideal S512x512 .f32) (h : S512x512.Reduces [1] S512) (hφ : FKind.Formats .f32)
    (hacc : (0x00000000#32 : BitVec 32) = 0x00000000#32) (r : Fin 512) :
    multiReduction (F := Ideal) .add [1] S512 x 0x00000000#32 h hφ hacc (ix1 r) = ∑ c : Fin 512, x (ix2 r c) := by
  refine (Ideal.multiReduction_add_single x 0x00000000#32 h hφ hacc (ix1 r)).trans ?_
  show ∑ c : Fin 512, x (h.lift (ix1 r) c) = _
  refine Finset.sum_congr rfl fun c _ => congrArg x (funext fun a => Fin.ext ?_)
  match a with
  | ⟨0, _⟩ => rfl
  | ⟨1, _⟩ => rfl

/-- The sum of a 512 × 1 column: the one entry of the result is the sum of the column's entries. -/
theorem colSum512 (x : FVec Ideal S512x1 .f32) (h : S512x1.Reduces [0] S1) (hφ : FKind.Formats .f32)
    (hacc : (0x00000000#32 : BitVec 32) = 0x00000000#32) (u : Fin 1) :
    multiReduction (F := Ideal) .add [0] S1 x 0x00000000#32 h hφ hacc (ix1 u) = ∑ r : Fin 512, x (ix2 r u) := by
  refine (Ideal.multiReduction_add_single x 0x00000000#32 h hφ hacc (ix1 u)).trans ?_
  show ∑ r : Fin 512, x (h.lift (ix1 u) r) = _
  refine Finset.sum_congr rfl fun r _ => congrArg x (funext fun a => Fin.ext ?_)
  match a with
  | ⟨0, _⟩ => rfl
  | ⟨1, _⟩ => rfl

/-- The stored block: every one of its 8 × 128 cells holds the sum, over the tile, of the masked entries, times the
    scale. The mask compares the row's and the column's positions as 32-bit words: the tile's offset plus the
    position inside the tile. -/
theorem pay1_apply (v0 v1 : BitVec 32) (P2 : FVec Ideal S512x512 .f32) (P3 : IVec S512x512 1)
    (P4 : FVec Ideal S512x512 .f32) (y : S1x1x8x128.Idx) :
    Gen.k0_pay1 (F := Ideal) v0 v1 P2 P3 P4 y
      = (∑ r : Fin 512, ∑ c : Fin 512,
          Scalar.select (IntOp.cmpi .slt (v0 + BitVec.ofNat 32 r.val) (v1 + BitVec.ofNat 32 c.val))
            (Scalar.select (P3 (ix2 r c)) (P2 (ix2 r c)) (P4 (ix2 r c))) (Ideal.ofBits .f32 0x00000000#32))
        * Ideal.ofBits .f32 0x3A800000#32 := by
  unfold Gen.k0_pay1
  refine (broadcastTo_one_apply _ _ y (ix4 (0 : Fin 1) (0 : Fin 1) (0 : Fin 1) (0 : Fin 1))).trans ?_
  rw [shapeCast_self]
  refine (shapeCast_one_apply _ _ (by decide) _ (ix2 (0 : Fin 1) (0 : Fin 1))).trans ?_
  rw [mulf_apply, broadcast_apply]
  refine congrArg (· * Ideal.ofBits .f32 0x3A800000#32) ?_
  refine (shapeCast_one_apply _ _ (by decide) _ (ix1 (0 : Fin 1))).trans ?_
  refine (colSum512 _ _ _ _ (0 : Fin 1)).trans ?_
  refine Finset.sum_congr rfl fun r _ => ?_
  refine (shapeCast_a_a1_apply _ _ r (0 : Fin 1)).trans ?_
  refine (rowSum512 _ _ _ _ r).trans ?_
  refine Finset.sum_congr rfl fun c _ => ?_
  have e0 : iota .tc S512x512 32 [0] Gen.iota_S512x512_d0_w32 (ix2 r c) = BitVec.ofNat 32 r.val :=
    iota_single_apply .tc S512x512 32 0 _ (ix2 r c)
  have e1 : iota .tc S512x512 32 [1] Gen.iota_S512x512_d1_w32 (ix2 r c) = BitVec.ofNat 32 c.val :=
    iota_single_apply .tc S512x512 32 1 _ (ix2 r c)
  show Scalar.select (IntOp.cmpi .slt (v0 + iota .tc S512x512 32 [0] Gen.iota_S512x512_d0_w32 (ix2 r c))
      (v1 + iota .tc S512x512 32 [1] Gen.iota_S512x512_d1_w32 (ix2 r c)))
      (Scalar.select (P3 (ix2 r c)) (P2 (ix2 r c)) (P4 (ix2 r c))) (Ideal.ofBits .f32 0x00000000#32) = _
  rw [e0, e1]

/-! ## The mask's two positions as numbers -/

/-- The word the body compares for position r of tile b: the tile's offset b · 512 (as a 32-bit product) plus r.
    Below 4096 nothing wraps, so as a signed integer it is the number b · 512 + r. -/
theorem pos_toInt (b : Fin 8) (r : Fin 512) :
    (Scalar.muli (BitVec.ofNat 32 b.val) 512#32 + BitVec.ofNat 32 r.val).toInt = ((b.val * 512 + r.val : ℕ) : Int) := by
  have e : Scalar.muli (BitVec.ofNat 32 b.val) 512#32 + BitVec.ofNat 32 r.val = BitVec.ofNat 32 (b.val * 512 + r.val) := by
    rw [BitVec.ofNat_add, BitVec.ofNat_mul]; rfl
  have hb := b.isLt
  have hr := r.isLt
  rw [e, PairLoss.toInt_ofNat_small _ (by omega)]

/-- The stored block of grid point (bi, bj), from the two embedding blocks and the two label blocks: every cell holds
    the tile's sum of pair values — each from the squared norms of its two rows, their inner product, whether the two
    labels agree, and whether the pair's row position bi · 512 + r is below its column position bj · 512 + c — times
    the scale. -/
theorem payload_apply (bi bj : Fin 8) (x0 x1 : FVec Ideal S512x768 .bf16) (l2 : IVec S512x1 32) (l3 : IVec S1x512 32)
    (y : S1x1x8x128.Idx) :
    Gen.k0_pay1 (F := Ideal) (Scalar.muli (BitVec.ofNat 32 bi.val) 512#32) (Scalar.muli (BitVec.ofNat 32 bj.val) 512#32)
        (Gen.k0_pay2 (F := Ideal) x0 x1) (Gen.k0_pay3 (F := Ideal) l2 l3) (Gen.k0_pay4 (F := Ideal) x0 x1) y
      = (∑ r : Fin 512, ∑ c : Fin 512,
          PairLoss.entry (∑ k : Fin 768, x0 (ix2 r k) * x0 (ix2 r k)) (∑ k : Fin 768, x1 (ix2 c k) * x1 (ix2 c k))
            (∑ k : Fin 768, x0 (ix2 r k) * x1 (ix2 c k))
            (decide (l2 (ix2 r (0 : Fin 1)) = l3 (ix2 (0 : Fin 1) c)))
            (decide (bi.val * 512 + r.val < bj.val * 512 + c.val)))
        * Ideal.ofBits .f32 0x3A800000#32 := by
  rw [pay1_apply]
  refine congrArg (· * Ideal.ofBits .f32 0x3A800000#32) ?_
  refine Finset.sum_congr rfl fun r _ => Finset.sum_congr rfl fun c _ => ?_
  rw [PairLoss.select_cmpi_slt, pay3_apply, PairLoss.select_cmpi_eq, pay4_apply, pay2_apply, pos_toInt, pos_toInt,
    PairLoss.entry_decide]
  simp only [Nat.cast_lt]

/-- The same with the blocks named as blocks of one embedding array x and one label array lab: when the first
    embedding block is rows bi · 512 … of x, the second rows bj · 512 …, and the two label blocks are the labels of those
    rows, every cell of the stored block of grid point (bi, bj) holds the sum over the tile of the pair values of x and
    lab at (bi · 512 + r, bj · 512 + c), times the scale. -/
theorem payload_masked (x : PairLoss.SEmb.Idx → EReal) (lab : PairLoss.SLab.Idx → BitVec 32) (bi bj : Fin 8)
    (x0 x1 : FVec Ideal S512x768 .bf16) (l2 : IVec S512x1 32) (l3 : IVec S1x512 32)
    (hx0 : ∀ (r : Fin 512) (k : Fin 768),
      x0 (ix2 r k) = x (ix2 (⟨bi.val * 512 + r.val, LibSumAlgebra.block_lt (m := 8) (n := 512) bi r⟩ : Fin 4096) k))
    (hx1 : ∀ (c : Fin 512) (k : Fin 768),
      x1 (ix2 c k) = x (ix2 (⟨bj.val * 512 + c.val, LibSumAlgebra.block_lt (m := 8) (n := 512) bj c⟩ : Fin 4096) k))
    (hl2 : ∀ r : Fin 512,
      l2 (ix2 r (0 : Fin 1)) = lab (ix1 (⟨bi.val * 512 + r.val, LibSumAlgebra.block_lt (m := 8) (n := 512) bi r⟩ : Fin 4096)))
    (hl3 : ∀ c : Fin 512,
      l3 (ix2 (0 : Fin 1) c) = lab (ix1 (⟨bj.val * 512 + c.val, LibSumAlgebra.block_lt (m := 8) (n := 512) bj c⟩ : Fin 4096)))
    (y : S1x1x8x128.Idx) :
    Gen.k0_pay1 (F := Ideal) (Scalar.muli (BitVec.ofNat 32 bi.val) 512#32) (Scalar.muli (BitVec.ofNat 32 bj.val) 512#32)
        (Gen.k0_pay2 (F := Ideal) x0 x1) (Gen.k0_pay3 (F := Ideal) l2 l3) (Gen.k0_pay4 (F := Ideal) x0 x1) y
      = (∑ r : Fin 512, ∑ c : Fin 512,
          PairLoss.masked x lab (⟨bi.val * 512 + r.val, LibSumAlgebra.block_lt (m := 8) (n := 512) bi r⟩ : Fin 4096)
            (⟨bj.val * 512 + c.val, LibSumAlgebra.block_lt (m := 8) (n := 512) bj c⟩ : Fin 4096))
        * Ideal.ofBits .f32 0x3A800000#32 := by
  rw [payload_apply]
  refine congrArg (· * Ideal.ofBits .f32 0x3A800000#32) ?_
  refine Finset.sum_congr rfl fun r _ => Finset.sum_congr rfl fun c _ => ?_
  unfold PairLoss.masked PairLoss.sqNorm PairLoss.gram
  simp only [hx0, hx1, hl2, hl3, Fin.mk_lt_mk]

end Cert.KernelIdeal.Payload

end
-- ==== Proof.KernelValue.lean ====
import proofs.«181027_j66391604461719_1_alg».proof.Proof.Body
import proofs.«181027_j66391604461719_1_alg».proof.Proof.Spec
import proofs.«181027_j66391604461719_1_alg».proof.Proof.LibSumAlgebra
import proofs.«181027_j66391604461719_1_alg».proof.Proof.Payload
import Idealize.ShloMosaic.Lib.Pipeline.Value
import Idealize.ShloMosaic.Lib.ValueIdx

/-!
# The kernel's output array, read at an index

The region leaves an array of 8 × 8 blocks of 8 × 128 cells. Every cell of block `(bi, bj)` holds the same number: the
sum of the masked pair values over tile `(bi, bj)` of the 4096 × 4096 pair matrix — rows `512·bi …`, columns
`512·bj …` —, scaled by the extended real the f32 word `0x3A800000` denotes (2⁻¹⁰).

The steps. The three host lines before the region leave the embeddings as they were (a change of format is the identity
on extended reals) and the labels laid out as a column and as a row (a reshape keeps the row-major position). At the grid
point with coordinates `(bi, bj)` the four input windows hold rows `512·bi …` and rows `512·bj …` of the embeddings, and
the labels of the same rows: a block's element sits in its array at block index × block size + its own coordinate, and
the block indices are the grid coordinates (decided over the 64 points). The body's one store of the whole output block
is the payload of those four blocks, which is the tile's scaled sum. What a point writes back is therefore its block of
ONE function of the argument arrays; the 64 blocks cover the array; so the array ends holding that function.
-/

noncomputable section

open scoped BigOperators

namespace Cert.KernelIdeal.KernelValue

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)
open Cert.LibSumAlgebra (block_lt)

variable (m : (ℓ : Loc nD τ sig) → Buf (Elt Ideal) ℓ)

/-- The embedding argument of core `c`, as launched. -/
abbrev embOf (c : Dev nD) : PairLoss.SEmb.Idx → EReal := m ((c.tc : Thread nD τ).loc main_arg0)
/-- The label argument of core `c`, as launched. -/
abbrev labOf (c : Dev nD) : PairLoss.SLab.Idx → BitVec 32 := m ((c.tc : Thread nD τ).loc main_arg1)

/-! ## The tile sums, and the array they make -/

/-- The sum of the masked pair values over tile `(bi, bj)`: rows `512·bi + r`, columns `512·bj + c`. -/
def tileSum (x : PairLoss.SEmb.Idx → EReal) (lab : PairLoss.SLab.Idx → BitVec 32) (bi bj : Fin 8) : EReal :=
  ∑ r : Fin 512, ∑ c : Fin 512,
    PairLoss.masked x lab (⟨bi.val * 512 + r.val, block_lt (m := 8) (n := 512) bi r⟩ : Fin 4096)
      (⟨bj.val * 512 + c.val, block_lt (m := 8) (n := 512) bj c⟩ : Fin 4096)

/-- The output array as one function of the two arguments: every cell of block `(bi, bj)` is the tile's scaled sum. -/
abbrev tiles (x : PairLoss.SEmb.Idx → EReal) (lab : PairLoss.SLab.Idx → BitVec 32) : S8x8x8x128.Idx → EReal :=
  fun i => tileSum x lab (i 0) (i 1) * Ideal.ofBits .f32 0x3A800000#32

/-! ## The arrays as the region finds them -/

/-- The converted embeddings are the embeddings: a change of format is the identity on extended reals. -/
theorem V_main_v0 (c : Dev nD) : (V m c main_v0 : S4096x768.Idx → EReal) = embOf m c := by
  show StableHlo.after hostOps0 (fun b => m (c, b)) (Proc.devRef .tc main_v0) = _
  after_results
  rfl

/-- The label column is the labels reshaped [4096] → [4096, 1]. -/
theorem V_main_v1 (c : Dev nD) :
    (V m c main_v1 : S4096x1.Idx → BitVec 32) = shapeCast S4096x1 (labOf m c) shapeCasts_S4096_S4096x1 := by
  show StableHlo.after hostOps0 (fun b => m (c, b)) (Proc.devRef .tc main_v1) = _
  after_results
  rfl

/-- The label row is the labels reshaped [4096] → [1, 4096]. -/
theorem V_main_v2 (c : Dev nD) :
    (V m c main_v2 : S1x4096.Idx → BitVec 32) = shapeCast S1x4096 (labOf m c) shapeCasts_S4096_S1x4096 := by
  show StableHlo.after hostOps0 (fun b => m (c, b)) (Proc.devRef .tc main_v2) = _
  after_results
  rfl

/-- Row `i` of the label column is label `i`: the same row-major position. -/
theorem V_main_v1_apply (c : Dev nD) (i : Fin 4096) :
    (V m c main_v1 : S4096x1.Idx → BitVec 32) (ix2 i (0 : Fin 1)) = labOf m c (ix1 i) := by
  rw [V_main_v1]
  refine shapeCast_apply _ _ _ (ix1 i) ?_
  rw [Shape.rowMajor_val_one, Shape.rowMajor_val_two]
  show i.val = i.val * 1 + 0
  omega

/-- Column `j` of the label row is label `j`. -/
theorem V_main_v2_apply (c : Dev nD) (j : Fin 4096) :
    (V m c main_v2 : S1x4096.Idx → BitVec 32) (ix2 (0 : Fin 1) j) = labOf m c (ix1 j) := by
  rw [V_main_v2]
  refine shapeCast_apply _ _ _ (ix1 j) ?_
  rw [Shape.rowMajor_val_one, Shape.rowMajor_val_two]
  show j.val = 0 * 4096 + j.val
  omega

/-! ## The windows' block indices are the grid coordinates -/

/-- The printed index maps, decided over the 64 grid points: the row-`bi` windows (embeddings and label column) sit at
    block `bi`, the row-`bj` windows (embeddings and label row) at block `bj`, the output at block `(bi, bj, 0, 0)`. -/
theorem idx_facts : ∀ t : Fin cfg0.N,
    win0_0.index t (0 : Fin 2) = (grid0.coords t 0).val ∧ win0_0.index t (1 : Fin 2) = 0
  ∧ win0_1.index t (0 : Fin 2) = (grid0.coords t 1).val ∧ win0_1.index t (1 : Fin 2) = 0
  ∧ win0_2.index t (0 : Fin 2) = (grid0.coords t 0).val ∧ win0_2.index t (1 : Fin 2) = 0
  ∧ win0_3.index t (0 : Fin 2) = 0 ∧ win0_3.index t (1 : Fin 2) = (grid0.coords t 1).val
  ∧ win0_4.index t (0 : Fin 4) = (grid0.coords t 0).val ∧ win0_4.index t (1 : Fin 4) = (grid0.coords t 1).val
  ∧ win0_4.index t (2 : Fin 4) = 0 ∧ win0_4.index t (3 : Fin 4) = 0 :=
  (by decide +kernel : ∀ t : Fin grid0.N, _)

/-- Every pair of block coordinates is SOME point's. -/
theorem idx_onto : ∀ (bi bj : Fin 8), ∃ t : Fin cfg0.N, (grid0.coords t 0).val = bi.val ∧ (grid0.coords t 1).val = bj.val :=
  (by decide +kernel : ∀ (bi bj : Fin 8), ∃ t : Fin grid0.N, (grid0.coords t 0).val = bi.val ∧ (grid0.coords t 1).val = bj.val)

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## Each input block, where the point's coordinates say -/

/-- Row `r` of the first embedding block at point `t` is row `512·bi + r` of the embeddings. -/
theorem iblk0_apply (c : Dev nD) (t : Fin cfg0.N) (r : Fin 512) (k : Fin 768) :
    (iblk m c 0 t : Vec Ideal S512x768 .bf16) (ix2 r k)
      = embOf m c (ix2 (⟨(grid0.coords t 0).val * 512 + r.val, block_lt (m := 8) (n := 512) (grid0.coords t 0) r⟩ : Fin 4096) k) := by
  obtain ⟨e0, e1, -⟩ := idx_facts t
  unfold iblk
  rw [View.read_apply]
  show (V m c main_v0 : S4096x768.Idx → EReal) _ = _
  rw [V_main_v0]
  refine congrArg _ (funext fun a => Fin.ext ?_)
  match a with
  | ⟨0, _⟩ => show win0_0.index t (0 : Fin 2) * 512 + 1 * r.val = (grid0.coords t 0).val * 512 + r.val; rw [e0]; omega
  | ⟨1, _⟩ => show win0_0.index t (1 : Fin 2) * 768 + 1 * k.val = k.val; rw [e1]; omega

/-- Row `r` of the second embedding block at point `t` is row `512·bj + r` of the embeddings. -/
theorem iblk1_apply (c : Dev nD) (t : Fin cfg0.N) (r : Fin 512) (k : Fin 768) :
    (iblk m c 1 t : Vec Ideal S512x768 .bf16) (ix2 r k)
      = embOf m c (ix2 (⟨(grid0.coords t 1).val * 512 + r.val, block_lt (m := 8) (n := 512) (grid0.coords t 1) r⟩ : Fin 4096) k) := by
  obtain ⟨-, -, e0, e1, -⟩ := idx_facts t
  unfold iblk
  rw [View.read_apply]
  show (V m c main_v0 : S4096x768.Idx → EReal) _ = _
  rw [V_main_v0]
  refine congrArg _ (funext fun a => Fin.ext ?_)
  match a with
  | ⟨0, _⟩ => show win0_1.index t (0 : Fin 2) * 512 + 1 * r.val = (grid0.coords t 1).val * 512 + r.val; rw [e0]; omega
  | ⟨1, _⟩ => show win0_1.index t (1 : Fin 2) * 768 + 1 * k.val = k.val; rw [e1]; omega

/-- Row `r` of the label-column block at point `t` is label `512·bi + r`. -/
theorem iblk2_apply (c : Dev nD) (t : Fin cfg0.N) (r : Fin 512) :
    (iblk m c 2 t : Vec Ideal S512x1 .i32) (ix2 r (0 : Fin 1))
      = labOf m c (ix1 (⟨(grid0.coords t 0).val * 512 + r.val, block_lt (m := 8) (n := 512) (grid0.coords t 0) r⟩ : Fin 4096)) := by
  obtain ⟨-, -, -, -, e0, e1, -⟩ := idx_facts t
  unfold iblk
  rw [View.read_apply]
  show (V m c main_v1 : S4096x1.Idx → BitVec 32) _ = _
  refine Eq.trans (congrArg _ (funext fun a => Fin.ext ?_)) (V_main_v1_apply m c _)
  match a with
  | ⟨0, _⟩ => show win0_2.index t (0 : Fin 2) * 512 + 1 * r.val = (grid0.coords t 0).val * 512 + r.val; rw [e0]; omega
  | ⟨1, _⟩ => show win0_2.index t (1 : Fin 2) * 1 + 1 * 0 = 0; rw [e1]

/-- Column `q` of the label-row block at point `t` is label `512·bj + q`. -/
theorem iblk3_apply (c : Dev nD) (t : Fin cfg0.N) (q : Fin 512) :
    (iblk m c 3 t : Vec Ideal S1x512 .i32) (ix2 (0 : Fin 1) q)
      = labOf m c (ix1 (⟨(grid0.coords t 1).val * 512 + q.val, block_lt (m := 8) (n := 512) (grid0.coords t 1) q⟩ : Fin 4096)) := by
  obtain ⟨-, -, -, -, -, -, e0, e1, -⟩ := idx_facts t
  unfold iblk
  rw [View.read_apply]
  show (V m c main_v2 : S1x4096.Idx → BitVec 32) _ = _
  refine Eq.trans (congrArg _ (funext fun a => Fin.ext ?_)) (V_main_v2_apply m c _)
  match a with
  | ⟨0, _⟩ => show win0_3.index t (0 : Fin 2) * 1 + 1 * 0 = 0; rw [e0]
  | ⟨1, _⟩ => show win0_3.index t (1 : Fin 2) * 512 + 1 * q.val = (grid0.coords t 1).val * 512 + q.val; rw [e1]; omega

/-! ## What a point writes back, the cover, and the array after the region -/

/-- WHAT POINT `t` WRITES BACK is block `t` of the tile-sum array of the two arguments: the body's one whole-block store
    is the payload of the four input blocks, the blocks are rows `512·bi …` / `512·bj …` of the arguments, and the
    block's cells all sit in block `(bi, bj)` of the array. -/
theorem flushed4_eq (c : Dev nD) (t : Fin cfg0.N) :
    (dats m 0 c).flushed 4 t = ((cfg0.win 4).blk t).view.read (Elt Ideal) (tiles (embOf m c) (labOf m c)) := by
  show (cfg0.win 4).cut (grid0.coords t) ((dats m 0 c).after 4 t) = _
  rw [after0_4]
  unfold out0_4
  rw [View.canon_unit_zero hz4]
  simp only [View.ld_unit_zero (S := S512x768) hz2, View.ld_unit_zero (S := S512x1) hz2, View.ld_unit_zero (S := S1x512) hz2]
  funext y
  obtain ⟨-, -, -, -, -, -, -, -, e0, e1, -, -⟩ := idx_facts t
  refine (Payload.payload_masked (embOf m c) (labOf m c) (grid0.coords t 0) (grid0.coords t 1) _ _ _ _
    (iblk0_apply m c t) (iblk1_apply m c t) (iblk2_apply m c t) (iblk3_apply m c t) _).trans ?_
  have hy0 : (y 0).val < 1 := (y 0).isLt
  have hy1 : (y 1).val < 1 := (y 1).isLt
  have h0 : (grid0.coords t 0 : Fin 8) = (((cfg0.win 4).blk t).view.emb y 0 : Fin 8) := Fin.ext (by
    show (grid0.coords t 0).val = win0_4.index t (0 : Fin 4) * 1 + 1 * (y 0).val
    rw [e0]; omega)
  have h1 : (grid0.coords t 1 : Fin 8) = (((cfg0.win 4).blk t).view.emb y 1 : Fin 8) := Fin.ext (by
    show (grid0.coords t 1).val = win0_4.index t (1 : Fin 4) * 1 + 1 * (y 1).val
    rw [e1]; omega)
  show tileSum (embOf m c) (labOf m c) (grid0.coords t 0) (grid0.coords t 1) * _ = tileSum (embOf m c) (labOf m c) _ _ * _
  rw [h0, h1]

/-- An index of the array is in point `t`'s block iff each coordinate is in the block's range on its axis. -/
theorem mem_blk4 (t : Fin cfg0.N) (i : S8x8x8x128.Idx) :
    i ∈ ((cfg0.win 4).blk t).view.set ↔ ∀ a : Fin 4, win0_4.index t a * S1x1x8x128.size a ≤ (i a).val ∧ (i a).val < win0_4.index t a * S1x1x8x128.size a + S1x1x8x128.size a := by
  show i ∈ ((View.whole main_v3).slice (win0_4.rect t)).set ↔ _
  rw [View.set_slice_whole, Rect.mem_set_unit]
  exact Iff.rfl

/-- THE COVER: every index of the array is in the block of the point whose coordinates are its first two. -/
theorem cover4 (i : S8x8x8x128.Idx) :
    ∃ t : Fin cfg0.N, (cfg0.win 4).flush t = true ∧ i ∈ ((cfg0.win 4).blk t).view.set := by
  obtain ⟨t, ht0, ht1⟩ := idx_onto (i 0) (i 1)
  obtain ⟨-, -, -, -, -, -, -, -, e0, e1, e2, e3⟩ := idx_facts t
  have hi2 : (i 2).val < 8 := (i 2).isLt
  have hi3 : (i 3).val < 128 := (i 3).isLt
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; rw [e0, ht0]; omega
  | ⟨1, _⟩ => show win0_4.index t (1 : Fin 4) * 1 ≤ (i 1).val ∧ (i 1).val < win0_4.index t (1 : Fin 4) * 1 + 1; rw [e1, ht1]; omega
  | ⟨2, _⟩ => show win0_4.index t (2 : Fin 4) * 8 ≤ (i 2).val ∧ (i 2).val < win0_4.index t (2 : Fin 4) * 8 + 8; rw [e2]; omega
  | ⟨3, _⟩ => show win0_4.index t (3 : Fin 4) * 128 ≤ (i 3).val ∧ (i 3).val < win0_4.index t (3 : Fin 4) * 128 + 128; rw [e3]; omega

/-- THE ARRAY after the region: the tile-sum array of the two arguments. -/
theorem final4 (c : Dev nD) : (dats m 0 c).arrAt 4 cfg0.N = tiles (embOf m c) (labOf m c) :=
  (dats m 0 c).arrAt_eq_of_cover 4 (tiles (embOf m c) (labOf m c)) (fun t _ => flushed4_eq m c t) cover4

/-- THE ARRAY AT AN INDEX: cell `(p, q)` of block `(bi, bj)` is the scaled sum of the masked pair values over tile
    `(bi, bj)` of the pair matrix of the launch arguments. -/
theorem arrAt4_apply (c : Dev nD) (bi bj p : Fin 8) (q : Fin 128) :
    (dats (F := Ideal) m 0 c).arrAt 4 cfg0.N (ix4 bi bj p q)
      = (∑ r : Fin 512, ∑ c' : Fin 512,
          PairLoss.masked (m ((c.tc : Thread nD τ).loc main_arg0)) (m ((c.tc : Thread nD τ).loc main_arg1))
            (⟨bi.val * 512 + r.val, block_lt (m := 8) (n := 512) bi r⟩ : Fin 4096)
            (⟨bj.val * 512 + c'.val, block_lt (m := 8) (n := 512) bj c'⟩ : Fin 4096))
        * Ideal.ofBits .f32 0x3A800000#32 := by
  rw [final4]
  rfl

end Cert.KernelIdeal.KernelValue
end
-- ==== Proof.KernelSum.lean ====
/-
  The host's last steps of the kernel's program: the sum of the whole f32[8, 8, 8, 128] output array, divided by the
  number of pairs.

  Every one of the 8 × 128 cells of output block (bi, bj) holds T(bi, bj) · 2^(-10), where T(bi, bj) is the sum of the
  pair values over the 512 × 512 tile (bi, bj).  The host's sum over the whole array starts from the zero word and adds
  all 8 · 8 · 8 · 128 cells; grouped by block, the 1024 equal cells of one block add up to T(bi, bj) — for EVERY
  extended real T(bi, bj), since 1024 · 2^(-10) = 1 and only commutativity and associativity of the product are used —
  and the sum of the T(bi, bj) over the 8 × 8 grid of tiles is the sum of the pair values over all 4096 × 4096 pairs.
  Dividing by the same word as the specification gives the specification's loss.  No finiteness is needed anywhere.
-/
import proofs.«181027_j66391604461719_1_alg».proof.KernelIdeal
import proofs.«181027_j66391604461719_1_alg».proof.Proof.Spec
import proofs.«181027_j66391604461719_1_alg».proof.Proof.LibSumAlgebra
import Idealize.ShloMosaic.Lib.ValueIdx
import Idealize.ShloMosaic.PureOps.Ideal.Laws

noncomputable section

namespace Cert.KernelIdeal.KernelSum

open Idealize.ShloMosaic Idealize.ShloMosaic.ValueIdx
open Cert.KernelIdeal

/-! ## A sum over a rank-4 index set -/

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-! ## The scale -/

/-- The f32 word 0x3A800000 denotes 2^(-10). -/
theorem ofBits_scale : Ideal.ofBits .f32 0x3A800000#32 = (((2 : ℝ) ^ (-10 : Int) : ℝ) : EReal) := by
  simp [Ideal.ofBits, Ideal.ieee, -EReal.coe_mul]
  norm_num

/-- 8 · 128 cells, each 2^(-10) of a block's tile sum, add up to the tile sum. -/
theorem sum_cells (t : EReal) :
    ∑ _p : Fin 8, ∑ _q : Fin 128, t * Ideal.ofBits .f32 0x3A800000#32 = t := by
  rw [ofBits_scale]
  exact LibSumAlgebra.sum_fin8_fin128_mul_two_pow_neg_ten t

/-! ## The host's sum of the output array, divided by the number of pairs -/

/-- When every cell of output block (bi, bj) holds the scaled sum of the pair values of x and lab over tile (bi, bj),
    the host's sum of the whole output array from the zero word, divided by the word 0x4AFFF000, is the
    specification's loss. -/
theorem host_sum_div (x : PairLoss.SEmb.Idx → EReal) (lab : PairLoss.SLab.Idx → BitVec 32)
    (OUT : FVec Ideal S8x8x8x128 .f32) (hred : S8x8x8x128.ReducesTo [0, 1, 2, 3] S_) (hS : 0 < S_.numel)
    (hOUT : ∀ (bi bj : Fin 8) (p : Fin 8) (q : Fin 128),
      OUT (ix4 bi bj p q)
        = (∑ r : Fin 512, ∑ c : Fin 512,
            PairLoss.masked x lab (⟨bi.val * 512 + r.val, LibSumAlgebra.block_lt (m := 8) (n := 512) bi r⟩ : Fin 4096)
              (⟨bj.val * 512 + c.val, LibSumAlgebra.block_lt (m := 8) (n := 512) bj c⟩ : Fin 4096))
          * Ideal.ofBits .f32 0x3A800000#32) :
    Host.divf (F := Ideal) (Host.reduceAdd (F := Ideal) OUT (constant (F := Ideal) S_ .f32 0x00000000#32) hred hS)
        (constant (F := Ideal) S_ .f32 0x4AFFF000#32)
      = fun _ => PairLoss.loss x lab := by
  funext j
  show Ideal.div (Ideal.hostReduceAdd hred OUT (Ideal.ofBits .f32 0x00000000#32) j) (Ideal.ofBits .f32 0x4AFFF000#32) = _
  unfold PairLoss.loss
  refine congrArg (Ideal.div · (Ideal.ofBits .f32 0x4AFFF000#32)) ?_
  rw [Ideal.hostReduceAdd_total hred (fun b => b.elim0) OUT _ j, Ideal.ofBits_zero_f32, zero_add, sum_idx4]
  unfold PairLoss.total
  rw [← LibSumAlgebra.sum_tiles_8_512 (fun i j => PairLoss.masked x lab i j)]
  refine Finset.sum_congr rfl fun bi _ => Finset.sum_congr rfl fun bj _ => ?_
  simp only [hOUT]
  exact sum_cells _

end Cert.KernelIdeal.KernelSum

end
-- ==== Proof.RefIsSpec.lean ====
/-
  The reference's result is the specification: the host program computes, entry by entry, exactly the pair values of
  `Cert.PairLoss`, sums them over all pairs and divides by the number of pairs of the strict upper triangle.

  Stage by stage: the row sums of x · x are the squared norms; the product of x with its transpose is the matrix of
  inner products; the broadcasts of the squared norms along rows and columns, minus twice the inner products, clamped
  at zero, are the squared distances; the hinge follows elementwise; the label comparison and the triangle mask (a signed
  comparison of two iotas, whose values stay below 4096 and so are read as themselves) select between them; the sum over
  the rank-2 index set is the double sum over the coordinates.
-/
import proofs.«181027_j66391604461719_1_alg».proof.Proof.Spec
import proofs.«181027_j66391604461719_1_alg».proof.Proof.Gen.ReferenceIdeal.Read

noncomputable section

open scoped BigOperators

namespace Cert.PairLoss.Ref

open Cert.ReferenceIdeal Cert.ReferenceIdeal.Read Idealize.ShloMosaic Idealize.ShloMosaic.ValueIdx Cert.PairLoss

variable (x0 : (⟨S4096x768, .f32⟩ : BufTy).Contents (Elt Ideal)) (x1 : (⟨S4096, .i32⟩ : BufTy).Contents (Elt Ideal))

/-! ## The squared norms and the inner products -/

/-- The row sum of x · x at row `a` is the squared norm of row `a`. -/
theorem sq_apply (a : Fin 4096) : val_main_v1 (F := Ideal) x0 (ix1 a) = sqNorm x0 a := by
  rw [val_main_v1_apply, val_main_cst_apply, Ideal.ofBits_def, Ideal.ofBits_zero_f32, zero_add]
  unfold sqNorm
  refine Finset.sum_congr rfl fun k _ => ?_
  have e : idx_main_v1 (ix1 a) k = ix2 a k :=
    funext fun d => Fin.ext (by match d with | ⟨0, _⟩ => rfl | ⟨1, _⟩ => rfl)
  rw [val_main_v0_apply, e, Ideal.mulf_def]

/-- The product of x with its transpose at `(a, b)` is the inner product of rows `a` and `b`. -/
theorem gram_apply (a b : Fin 4096) : val_main_v3 (F := Ideal) x0 (ix2 a b) = gram x0 a b := by
  rw [val_main_v3_apply]
  unfold gram
  refine Finset.sum_congr rfl fun k _ => ?_
  have el : lidx_main_v3 (ix2 a b) k = ix2 a k :=
    funext fun d => Fin.ext (by match d with | ⟨0, _⟩ => rfl | ⟨1, _⟩ => rfl)
  have er : idx_main_v2 (ridx_main_v3 (ix2 a b) k) = ix2 b k :=
    funext fun d => Fin.ext (by match d with | ⟨0, _⟩ => rfl | ⟨1, _⟩ => rfl)
  rw [val_main_v2_apply, el, er]

/-! ## The squared distance and the hinge -/

/-- The clamped squared distance at `(a, b)`. -/
theorem dist2_apply (a b : Fin 4096) :
    val_main_v13 (F := Ideal) x0 (ix2 a b) = dist2 (sqNorm x0 a) (sqNorm x0 b) (gram x0 a b) := by
  have e4 : idx_main_v4 (idx_main_v6 (ix2 a b)) = ix1 a :=
    funext fun d => Fin.ext (by match d with | ⟨0, _⟩ => rfl)
  have e5 : idx_main_v5 (idx_main_v7 (ix2 a b)) = ix1 b :=
    funext fun d => Fin.ext (by match d with | ⟨0, _⟩ => rfl)
  rw [val_main_v13_apply, val_main_v11_apply, val_main_v8_apply, val_main_v6_apply, val_main_v4_apply, e4,
    val_main_v7_apply, val_main_v5_apply, e5, val_main_v10_apply, val_main_v9_apply, val_main_cst_0_apply,
    val_main_v12_apply, val_main_cst_1_apply, sq_apply, sq_apply, gram_apply]
  simp only [Ideal.maximumf_def, Ideal.subf_def, Ideal.addf_def, Ideal.mulf_def, Ideal.ofBits_def]
  rfl

/-- The squared hinge at `(a, b)`, from the clamped squared distance there. -/
theorem hingeSq_apply (a b : Fin 4096) :
    val_main_v26 (F := Ideal) x0 (ix2 a b) = hingeSq (val_main_v13 (F := Ideal) x0 (ix2 a b)) := by
  rw [val_main_v26_apply, val_main_v25_apply, val_main_v23_apply, val_main_v22_apply, val_main_cst_3_apply,
    val_main_v16_apply, val_main_v15_apply, val_main_v14_apply, val_main_cst_2_apply, val_main_v24_apply,
    val_main_cst_4_apply]
  simp only [Ideal.maximumf_def, Ideal.subf_def, Ideal.addf_def, Ideal.mulf_def, Ideal.ofBits_def,
    Ideal.hostUnary_sqrt_def]
  rfl

/-! ## The two masks -/

/-- The label comparison at `(a, b)` compares the labels of rows `a` and `b`. -/
theorem same_apply (a b : Fin 4096) :
    val_main_v21 (F := Ideal) x1 (ix2 a b) = IntOp.cmpi .eq (x1 (ix1 a)) (x1 (ix1 b)) := by
  have e17 : idx_main_v17 (idx_main_v19 (ix2 a b)) = ix1 a :=
    funext fun d => Fin.ext (by match d with | ⟨0, _⟩ => rfl)
  have e18 : idx_main_v18 (idx_main_v20 (ix2 a b)) = ix1 b :=
    funext fun d => Fin.ext (by match d with | ⟨0, _⟩ => rfl)
  rw [val_main_v21_apply, val_main_v19_apply, val_main_v17_apply, e17, val_main_v20_apply, val_main_v18_apply, e18]

/-- The triangle's bit from its words: "row + 0 ≥ column" selects 0, otherwise 1 — the bit of "row < column", the
    coordinates being small enough to be read as themselves. -/
theorem triu_bit (a b : Nat) (ha : a < 4096) (hb : b < 4096) :
    Scalar.select (IntOp.cmpi .sge (IntOp.addi (BitVec.ofNat 32 a) 0#32) (BitVec.ofNat 32 b)) (0#1) (1#1)
      = if a < b then 1#1 else 0#1 := by
  have h0 : IntOp.addi (BitVec.ofNat 32 a) 0#32 = BitVec.ofNat 32 a := by
    unfold IntOp.addi; exact BitVec.add_zero _
  rw [h0]
  unfold Scalar.select IntOp.cmpi
  simp only [BitVec.sle, toInt_ofNat_small a (by omega), toInt_ofNat_small b (by omega)]
  by_cases h : a < b
  · have h' : ¬ ((b : Int) ≤ (a : Int)) := by omega
    simp [h, h']
  · have h' : ((b : Int) ≤ (a : Int)) := by omega
    simp [h, h']

/-- The triangle mask at `(a, b)` is the bit of `a < b`. -/
theorem triu_apply (a b : Fin 4096) :
    val_main_v29 (F := Ideal) (ix2 a b) = if a < b then 1#1 else 0#1 := by
  rw [val_main_v29_apply, val_main_call1_v4_apply, val_main_call1_v2_apply, val_main_call1_v0_apply,
    val_main_call1_v1_apply, val_main_call1_c_apply, val_main_call1_v3_apply, val_main_call1_v5_apply,
    val_main_call1_c_0_apply, val_main_v28_apply, val_main_c_apply]
  exact triu_bit a.val b.val a.isLt b.isLt

/-! ## One pair, the total and the loss -/

/-- The masked pair value at `(a, b)`. -/
theorem masked_apply (a b : Fin 4096) : val_main_v30 (F := Ideal) x0 x1 (ix2 a b) = masked x0 x1 a b := by
  rw [val_main_v30_apply, val_main_v27_apply, triu_apply, same_apply, hingeSq_apply, dist2_apply,
    val_main_call2_v1_apply, val_main_call2_v0_apply, val_main_cst_5_apply, Ideal.ofBits_def, select_cmpi_eq]
  unfold masked
  rw [entry_decide]
  by_cases h : a < b
  · rw [if_pos h, if_pos h, select_one]
  · rw [if_neg h, if_neg h, select_zero]

/-- The sum over the whole pair matrix is the specification's total. -/
theorem total_apply (i : S_.Idx) : val_main_v31 (F := Ideal) x0 x1 i = total x0 x1 := by
  rw [val_main_v31_apply, val_main_cst_6_apply, Ideal.ofBits_def, Ideal.ofBits_zero_f32, zero_add, sum_idx2]
  unfold total
  exact Finset.sum_congr rfl fun a _ => Finset.sum_congr rfl fun b _ => masked_apply x0 x1 a b

/-- THE REFERENCE IS THE SPECIFICATION: its result buffer holds the loss of its two arguments. -/
theorem val_main_v32_eq_loss : val_main_v32 (F := Ideal) x0 x1 = fun _ => loss x0 x1 := by
  funext i
  rw [val_main_v32_apply, total_apply, val_main_cst_7_apply, Ideal.hostDivf_def, Ideal.ofBits_def]
  rfl

end Cert.PairLoss.Ref

end
-- ==== Proof.lean ====
/-
  The contrastive pair loss, kernel against reference, over the extended reals.

  For embeddings x (4096 rows of 768) and labels lab, put sq(i) = Σ_k x(i,k)², gram(i,j) = Σ_k x(i,k)·x(j,k),
  d²(i,j) = max(sq(i) + sq(j) − 2·gram(i,j), 0), and let the pair's loss be d² when the labels agree and
  max(1 − √(d² + ε), 0)² when they do not. The reference sums the pair losses over the strict upper
  triangle i < j on the host and divides by the number of pairs. The kernel walks the 4096 × 4096 pair
  matrix in an 8 × 8 grid of 512 × 512 tiles: at tile (a, b) it computes the same entries from row block a
  and row block b of the embeddings, masks them by a·512 + r < b·512 + c, sums the tile, scales the sum by
  2⁻¹⁰ and writes that one number to all 8 × 128 cells of its output block; the host then sums the whole
  output array and divides by the same count.

  At the ideal instance the two agree with no hypothesis on the inputs: 1024 copies of t·2⁻¹⁰ sum to t for
  every extended real t (at ±∞ too), so the host's sum of the output array is the sum of the 64 tile sums;
  sums of extended reals may be regrouped freely, so the 64 tile sums are the sum over all pairs; and entry
  by entry both sides apply the same operations to the same three sums. The ideal pass rewrote nothing, so
  the idealization claim is trivial.

  Two of the pipeline's input windows read ONE array (the embeddings, by row block a and by row block b).
  The run therefore holds that array split in two half shares, one per window, and joins the halves again
  before the host operations that follow the region (Proof/LaunchShared.lean); the body's own proof speaks
  only of the staging buffers and is the usual one (Proof/Body.lean). What the output array holds after the
  run, cell by cell, is Proof/KernelValue.lean over Proof/Payload.lean; the host's sum and quotient of it is
  Proof/KernelSum.lean; the reference's result as the same function is Proof/RefIsSpec.lean; the function
  itself is Proof/Spec.lean.
-/
import proofs.«181027_j66391604461719_1_alg».proof.Defs
import proofs.«181027_j66391604461719_1_alg».proof.Proof.Gen.Kernel
import proofs.«181027_j66391604461719_1_alg».proof.Proof.Gen.KernelIdeal
import proofs.«181027_j66391604461719_1_alg».proof.Proof.Gen.ReferenceIdeal
import proofs.«181027_j66391604461719_1_alg».proof.Proof.Gen.ReferenceIdeal.Run
import proofs.«181027_j66391604461719_1_alg».proof.Proof.Gen.ReferenceIdeal.Read
import proofs.«181027_j66391604461719_1_alg».proof.Proof.Gen.Pre_finite_inputs
import proofs.«181027_j66391604461719_1_alg».proof.Proof.RunMain
import proofs.«181027_j66391604461719_1_alg».proof.Proof.RunMainBits
import proofs.«181027_j66391604461719_1_alg».proof.Proof.KernelValue
import proofs.«181027_j66391604461719_1_alg».proof.Proof.KernelSum
import proofs.«181027_j66391604461719_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as they were. -/
theorem frame_kernel : Cert.frame_Kernel (hKernel := Cert.Kernel.Gen.facts) (hPre_finite_inputs := Cert.Pre_finite_inputs.Gen.facts) :=
  fun m ρ _ => Cert.Kernel.Run.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Run.frame m ρ

/-- The reference is host operations only: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the pair loss of the argument arrays in their result buffer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (fun _ => Cert.PairLoss.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · refine (θ_run Cert.KernelIdeal.defs _ _).mono (fun _ h c => ⟨(h c).1.trans ?_, (h c).2⟩)
      (Cert.KernelIdeal.Run.run_value (F := Ideal) m ρ)
    exact Cert.KernelIdeal.KernelSum.host_sum_div _ _ _ _ _ (fun bi bj p q => Cert.KernelIdeal.KernelValue.arrAt4_apply m c bi bj p q)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v32_eq, Cert.PairLoss.Ref.val_main_v32_eq_loss, (hagree c).1, (hagree c).2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
